-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x256 : Shape := ⟨3, ![64, 512, 256]⟩
abbrev S64x512 : Shape := ⟨2, ![64, 512]⟩
abbrev S_ : Shape := ⟨0, ![]⟩

class Facts : Prop where
  bcast_S_S64x512x256 : S_.BroadcastsInDim S64x512x256 (![] : Fin 0 → Fin S64x512x256.rank)
  reducesTo_S64x512x256_S_d0_1_2 : S64x512x256.ReducesTo [0, 1, 2] S_
  h_S_ : 0 < S_.numel

variable [Facts]

def fn {F : FTy → Type} [FloatOps F] (main_arg0 : FVec F S64x512x256 .f32) (main_arg1 : FVec F S64x512x256 .f32) (main_arg2 : IVec S64x512 32) : IVec S_ 1 :=
  let main_v0 : FVec F S64x512x256 .f32 := Host.absf main_arg0
  let main_cst : FVec F S_ .f32 := constant S_ .f32 0x7F800000#32
  let main_v1 : FVec F S64x512x256 .f32 := broadcastInDim S64x512x256 ![] bcast_S_S64x512x256 main_cst
  let main_v2 : IVec S64x512x256 1 := cmpf .olt main_v0 main_v1
  let main_c : IVec S_ 1 := constantI S_ 1 1#1
  let main_v3 : IVec S_ 1 := (fun x v => Host.reduce IntOp.andi x v reducesTo_S64x512x256_S_d0_1_2 h_S_) main_v2 main_c
  let main_v4 : FVec F S64x512x256 .f32 := Host.absf main_arg1
  let main_cst_0 : FVec F S_ .f32 := constant S_ .f32 0x7F800000#32
  let main_v5 : FVec F S64x512x256 .f32 := broadcastInDim S64x512x256 ![] bcast_S_S64x512x256 main_cst_0
  let main_v6 : IVec S64x512x256 1 := cmpf .olt main_v4 main_v5
  let main_c_1 : IVec S_ 1 := constantI S_ 1 1#1
  let main_v7 : IVec S_ 1 := (fun x v => Host.reduce IntOp.andi x v reducesTo_S64x512x256_S_d0_1_2 h_S_) main_v6 main_c_1
  let main_v8 : IVec S_ 1 := andi main_v3 main_v7
  main_v8
-- ==== Kernel.lean ====
abbrev S64x512x256 : Shape := ⟨3, ![64, 512, 256]⟩
abbrev S64x512 : Shape := ⟨2, ![64, 512]⟩
abbrev S64x512x1 : Shape := ⟨3, ![64, 512, 1]⟩
abbrev S1x8192 : Shape := ⟨2, ![1, 8192]⟩
abbrev S1x512x256 : Shape := ⟨3, ![1, 512, 256]⟩
abbrev S1x512x1 : Shape := ⟨3, ![1, 512, 1]⟩
abbrev S1x128 : Shape := ⟨2, ![1, 128]⟩
abbrev S512x1 : Shape := ⟨2, ![512, 1]⟩
abbrev S1x512 : Shape := ⟨2, ![1, 512]⟩
abbrev S512x256 : Shape := ⟨2, ![512, 256]⟩
abbrev S512x512 : Shape := ⟨2, ![512, 512]⟩
abbrev S1 : Shape := ⟨1, ![1]⟩
abbrev S1x1 : Shape := ⟨2, ![1, 1]⟩
abbrev S512 : Shape := ⟨1, ![512]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S64x512x256, .f32⟩
  | .hbm, ⟨1, _⟩ => ⟨S64x512x256, .f32⟩
  | .hbm, ⟨2, _⟩ => ⟨S64x512, .i32⟩
  | .hbm, ⟨3, _⟩ => ⟨S64x512, .f32⟩
  | .hbm, ⟨4, _⟩ => ⟨S64x512x1, .f32⟩
  | .hbm, ⟨5, _⟩ => ⟨S1x8192, .f32⟩
  | .hbm, ⟨6, _⟩ => ⟨S_, .f32⟩
  | .hbm, ⟨7, _⟩ => ⟨S_, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x1, .f32⟩
  | .local _ .vmem, ⟨5, _⟩ => ⟨S1x512x1, .f32⟩
  | .local _ .vmem, ⟨6, _⟩ => ⟨S1x128, .f32⟩
  | .local _ .vmem, ⟨7, _⟩ => ⟨S1x128, .f32⟩
  | _, _ => ⟨S64x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x512_S64x512x1_0_1 : S64x512.BroadcastsInDim S64x512x1 (![0, 1] : Fin 2 → Fin S64x512x1.rank)
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  transposes_S512x1_p1_0_S1x512 : S512x1.Transposes [1, 0] S1x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  broadcasts_S512x1_S512x256 : S512x1.Broadcasts S512x256
  iota_S512x512_d0_w32 : S512x512.Iotas .tc 32 [0]
  iota_S512x512_d1_w32 : S512x512.Iotas .tc 32 [1]
  natLt_1_32 : 1 < 32
  broadcasts_S512x1_S512x512 : S512x1.Broadcasts S512x512
  broadcasts_S1x512_S512x512 : S1x512.Broadcasts S512x512
  reduces_S512x1_S1 : S512x1.Reduces [0] S1
  shapeCasts_S1_S1x1 : S1.ShapeCasts S1x1
  bitsLt_bf16_f32 : FTy.bits .bf16 < FTy.bits .f32
  reduces_S512x256_S512 : S512x256.Reduces [1] S512
  shapeCasts_S512_S512x1 : S512.ShapeCasts S512x1
  reduces_S512x512_S512 : S512x512.Reduces [1] S512
  broadcasts_S1x1_S512x512 : S1x1.Broadcasts S512x512
  inpos_S1x1_p0_0 : ∀ a, (![0, 0] : Fin 2 → Nat) a < S1x1.size a
  iota_S1x128_d1_w32 : S1x128.Iotas .tc 32 [1]
  inb_S1x128_S1x128_0_0 : ∀ a, (![0, 0] : Fin 2 → Nat) a + S1x128.size a ≤ S1x128.size a
  h_S1x128 : 0 < S1x128.numel
  reducesTo_S1x8192_S_d0_1 : S1x8192.ReducesTo [0, 1] S_
  h_S_ : 0 < S_.numel
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S64x512x256.size a
  hwx0_0 : ∀ i : grid0.Coords, EltTy.bits .f32 = 32 ∨ (Rect.block (s := S64x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S64x512x256.size a
  hwx0_1 : ∀ i : grid0.Coords, EltTy.bits .f32 = 32 ∨ (Rect.block (s := S64x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S64x512x1.size a
  hwx0_2 : ∀ i : grid0.Coords, EltTy.bits .f32 = 32 ∨ (Rect.block (s := S64x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x8192.size a
  hwx0_3 : ∀ i : grid0.Coords, EltTy.bits .f32 = 32 ∨ (Rect.block (s := S1x8192) S1x128.size (cc0_transform_3 i) (hinb0_3 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x256 : Shape := ⟨3, ![64, 512, 256]⟩
abbrev S64x512 : Shape := ⟨2, ![64, 512]⟩
abbrev S64x512x1 : Shape := ⟨3, ![64, 512, 1]⟩
abbrev S_ : Shape := ⟨0, ![]⟩
abbrev S64x256x512 : Shape := ⟨3, ![64, 256, 512]⟩
abbrev S64x512x512 : Shape := ⟨3, ![64, 512, 512]⟩
abbrev S64x1x512 : Shape := ⟨3, ![64, 1, 512]⟩
abbrev S512x512 : Shape := ⟨2, ![512, 512]⟩
abbrev S1x512x512 : Shape := ⟨3, ![1, 512, 512]⟩
abbrev S64 : Shape := ⟨1, ![64]⟩
abbrev S64x1x1 : Shape := ⟨3, ![64, 1, 1]⟩

abbrev nBuf : Space → Nat
  | .hbm => 152
  | .vmem => 0
  | .smem => 0
  | _ => 0

abbrev hbmTy0_0 (i : Nat) : BufTy := match i % 128 with
  | 0 => ⟨S64x512x256, .f32⟩
  | 1 => ⟨S64x512x256, .f32⟩
  | 2 => ⟨S64x512, .i32⟩
  | 3 => ⟨S64x512, .f32⟩
  | 4 => ⟨S64x512x1, .f32⟩
  | 5 => ⟨S64x512x256, .f32⟩
  | 6 => ⟨S64x512x256, .f32⟩
  | 7 => ⟨S64x512x1, .f32⟩
  | 8 => ⟨S64x512x256, .f32⟩
  | 9 => ⟨S64x512x256, .f32⟩
  | 10 => ⟨S64x512x256, .f32⟩
  | 11 => ⟨S_, .f32⟩
  | 12 => ⟨S64x512, .f32⟩
  | 13 => ⟨S64x256x512, .f32⟩
  | 14 => ⟨S64x512x512, .f32⟩
  | 15 => ⟨S64x512x1, .f32⟩
  | 16 => ⟨S64x1x512, .f32⟩
  | 17 => ⟨S64x512x512, .f32⟩
  | 18 => ⟨S64x512x512, .f32⟩
  | 19 => ⟨S64x512x512, .f32⟩
  | 20 => ⟨S_, .f32⟩
  | 21 => ⟨S64x512x512, .f32⟩
  | 22 => ⟨S64x512x512, .f32⟩
  | 23 => ⟨S64x512x512, .f32⟩
  | 24 => ⟨S_, .f32⟩
  | 25 => ⟨S_, .f32⟩
  | 26 => ⟨S64x512x512, .f32⟩
  | 27 => ⟨S64x512x512, .f32⟩
  | 28 => ⟨S64x512x512, .f32⟩
  | 29 => ⟨S512x512, .i32⟩
  | 30 => ⟨S512x512, .i32⟩
  | 31 => ⟨S_, .i32⟩
  | 32 => ⟨S512x512, .i32⟩
  | 33 => ⟨S512x512, .i32⟩
  | 34 => ⟨S512x512, .i1⟩
  | 35 => ⟨S512x512, .f32⟩
  | 36 => ⟨S_, .f32⟩
  | 37 => ⟨S512x512, .f32⟩
  | 38 => ⟨S512x512, .f32⟩
  | 39 => ⟨S1x512x512, .f32⟩
  | 40 => ⟨S64x512x512, .f32⟩
  | 41 => ⟨S64x512x512, .f32⟩
  | 42 => ⟨S64x512x256, .f32⟩
  | 43 => ⟨S_, .f32⟩
  | 44 => ⟨S64x512, .f32⟩
  | 45 => ⟨S64x256x512, .f32⟩
  | 46 => ⟨S64x512x512, .f32⟩
  | 47 => ⟨S64x512x1, .f32⟩
  | 48 => ⟨S64x1x512, .f32⟩
  | 49 => ⟨S64x512x512, .f32⟩
  | 50 => ⟨S64x512x512, .f32⟩
  | 51 => ⟨S64x512x512, .f32⟩
  | 52 => ⟨S_, .f32⟩
  | 53 => ⟨S64x512x512, .f32⟩
  | 54 => ⟨S64x512x512, .f32⟩
  | 55 => ⟨S64x512x512, .f32⟩
  | 56 => ⟨S_, .f32⟩
  | 57 => ⟨S_, .f32⟩
  | 58 => ⟨S64x512x512, .f32⟩
  | 59 => ⟨S64x512x512, .f32⟩
  | 60 => ⟨S64x512x512, .f32⟩
  | 61 => ⟨S512x512, .i32⟩
  | 62 => ⟨S512x512, .i32⟩
  | 63 => ⟨S_, .i32⟩
  | 64 => ⟨S512x512, .i32⟩
  | 65 => ⟨S512x512, .i32⟩
  | 66 => ⟨S512x512, .i1⟩
  | 67 => ⟨S512x512, .f32⟩
  | 68 => ⟨S_, .f32⟩
  | 69 => ⟨S512x512, .f32⟩
  | 70 => ⟨S512x512, .f32⟩
  | 71 => ⟨S1x512x512, .f32⟩
  | 72 => ⟨S64x512x512, .f32⟩
  | 73 => ⟨S64x512x512, .f32⟩
  | 74 => ⟨S512x512, .i32⟩
  | 75 => ⟨S512x512, .i32⟩
  | 76 => ⟨S_, .i32⟩
  | 77 => ⟨S512x512, .i32⟩
  | 78 => ⟨S512x512, .i32⟩
  | 79 => ⟨S512x512, .i1⟩
  | 80 => ⟨S512x512, .f32⟩
  | 81 => ⟨S64x512x1, .f32⟩
  | 82 => ⟨S64x1x512, .f32⟩
  | 83 => ⟨S64x512x512, .f32⟩
  | 84 => ⟨S64x512x512, .f32⟩
  | 85 => ⟨S64x512x512, .f32⟩
  | 86 => ⟨S_, .f32⟩
  | 87 => ⟨S512x512, .f32⟩
  | 88 => ⟨S512x512, .f32⟩
  | 89 => ⟨S1x512x512, .f32⟩
  | 90 => ⟨S64x512x512, .f32⟩
  | 91 => ⟨S64x512x512, .f32⟩
  | 92 => ⟨S_, .f32⟩
  | 93 => ⟨S64, .f32⟩
  | 94 => ⟨S_, .f32⟩
  | 95 => ⟨S64, .f32⟩
  | 96 => ⟨S64, .f32⟩
  | 97 => ⟨S64, .f32⟩
  | 98 => ⟨S_, .f32⟩
  | 99 => ⟨S64, .f32⟩
  | 100 => ⟨S64, .i1⟩
  | 101 => ⟨S_, .f32⟩
  | 102 => ⟨S64, .f32⟩
  | 103 => ⟨S64, .f32⟩
  | 104 => ⟨S64x512x512, .f32⟩
  | 105 => ⟨S_, .f32⟩
  | 106 => ⟨S64, .f32⟩
  | 107 => ⟨S64, .f32⟩
  | 108 => ⟨S64x512x512, .f32⟩
  | 109 => ⟨S_, .f32⟩
  | 110 => ⟨S64, .f32⟩
  | 111 => ⟨S64, .f32⟩
  | 112 => ⟨S_, .f32⟩
  | 113 => ⟨S_, .f32⟩
  | 114 => ⟨S64, .f32⟩
  | 115 => ⟨S64, .f32⟩
  | 116 => ⟨S_, .f32⟩
  | 117 => ⟨S_, .f32⟩
  | 118 => ⟨S64, .f32⟩
  | 119 => ⟨S64, .f32⟩
  | 120 => ⟨S64x1x1, .f32⟩
  | 121 => ⟨S64x512x512, .f32⟩
  | 122 => ⟨S64x512x512, .f32⟩
  | 123 => ⟨S64x1x1, .f32⟩
  | 124 => ⟨S64x512x512, .f32⟩
  | 125 => ⟨S64x512x512, .f32⟩
  | 126 => ⟨S64x512x512, .f32⟩
  | 127 => ⟨S64x512x512, .f32⟩
  | _ => ⟨S64x512x256, .f32⟩

abbrev hbmTy0_1 (i : Nat) : BufTy := match i % 128 with
  | 0 => ⟨S_, .f32⟩
  | 1 => ⟨S64x512x512, .f32⟩
  | 2 => ⟨S64x512x512, .i1⟩
  | 3 => ⟨S_, .f32⟩
  | 4 => ⟨S64x512x512, .f32⟩
  | 5 => ⟨S64x512x512, .f32⟩
  | 6 => ⟨S64x512x512, .f32⟩
  | 7 => ⟨S_, .f32⟩
  | 8 => ⟨S64x512x512, .f32⟩
  | 9 => ⟨S64x512x512, .f32⟩
  | 10 => ⟨S64x512x512, .f32⟩
  | 11 => ⟨S64x512x512, .f32⟩
  | 12 => ⟨S_, .f32⟩
  | 13 => ⟨S64, .f32⟩
  | 14 => ⟨S_, .f32⟩
  | 15 => ⟨S64, .f32⟩
  | 16 => ⟨S64, .f32⟩
  | 17 => ⟨S64, .f32⟩
  | 18 => ⟨S_, .f32⟩
  | 19 => ⟨S_, .f32⟩
  | 20 => ⟨S64, .f32⟩
  | 21 => ⟨S64, .f32⟩
  | 22 => ⟨S_, .f32⟩
  | 23 => ⟨S_, .f32⟩
  | _ => ⟨S64x512x256, .f32⟩

abbrev hbmTy (i : Nat) : BufTy := match i / 128 with
  | 0 => hbmTy0_0 i
  | 1 => hbmTy0_1 i
  | _ => ⟨S64x512x256, .f32⟩

abbrev bufTy : (tb : Table) → Fin (tcTables nBuf tb) → BufTy
  | .hbm, ⟨i, _⟩ => hbmTy i
  | _, _ => ⟨S64x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_call1_v0 : Ref sig .tc := ⟨.hbm, 57, rfl⟩
abbrev main_call1_v1 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_10 : Ref sig .tc := ⟨.hbm, 92, rfl⟩
abbrev main_v73 : Ref sig .tc := ⟨.hbm, 93, rfl⟩
abbrev main_cst_11 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_12 : Ref sig .tc := ⟨.hbm, 98, rfl⟩
abbrev main_v77 : Ref sig .tc := ⟨.hbm, 99, rfl⟩
abbrev main_v78 : Ref sig .tc := ⟨.hbm, 100, rfl⟩
abbrev main_cst_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_15 : Ref sig .tc := ⟨.hbm, 109, rfl⟩
abbrev main_v85 : Ref sig .tc := ⟨.hbm, 110, rfl⟩
abbrev main_v86 : Ref sig .tc := ⟨.hbm, 111, rfl⟩
abbrev main_cst_16 : Ref sig .tc := ⟨.hbm, 112, rfl⟩
abbrev main_call2_v0 : Ref sig .tc := ⟨.hbm, 113, rfl⟩
abbrev main_call2_v1 : Ref sig .tc := ⟨.hbm, 114, rfl⟩
abbrev main_v87 : Ref sig .tc := ⟨.hbm, 115, rfl⟩
abbrev main_cst_17 : Ref sig .tc := ⟨.hbm, 116, rfl⟩
abbrev main_call3_v0 : Ref sig .tc := ⟨.hbm, 117, rfl⟩
abbrev main_call3_v1 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_18 : Ref sig .tc := ⟨.hbm, 128, rfl⟩
abbrev main_v97 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_21 : Ref sig .tc := ⟨.hbm, 140, rfl⟩
abbrev main_v106 : Ref sig .tc := ⟨.hbm, 141, rfl⟩
abbrev main_cst_22 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_23 : Ref sig .tc := ⟨.hbm, 146, rfl⟩
abbrev main_call5_v0 : Ref sig .tc := ⟨.hbm, 147, rfl⟩
abbrev main_call5_v1 : Ref sig .tc := ⟨.hbm, 148, rfl⟩
abbrev main_v110 : Ref sig .tc := ⟨.hbm, 149, rfl⟩
abbrev main_cst_24 : Ref sig .tc := ⟨.hbm, 150, rfl⟩
abbrev main_v111 : Ref sig .tc := ⟨.hbm, 151, rfl⟩

abbrev nD : Nat := 1
abbrev τ : Topo := Topo.v7x

variable {F : FTy → Type} [FloatOps F]

class Facts₀ : Prop where
  bcast_S64x512_S64x512x1_0_1 : S64x512.BroadcastsInDim S64x512x1 (![0, 1] : Fin 2 → Fin S64x512x1.rank)
  bcast_S64x512x1_S64x512x256_0_1_2 : S64x512x1.BroadcastsInDim S64x512x256 (![0, 1, 2] : Fin 3 → Fin S64x512x256.rank)
  reducesTo_S64x512x256_S64x512_d2 : S64x512x256.ReducesTo [2] S64x512
  h_S_ : 0 < S_.numel
  transposes_S64x512x256_S64x256x512_0_2_1 : S64x512x256.Transposes [0, 2, 1] S64x256x512
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  reducesTo_S64x512_S64_d1 : S64x512.ReducesTo [1] S64
  bcast_S_S64 : S_.BroadcastsInDim S64 (![] : Fin 0 → Fin S64.rank)
  reducesTo_S64x512x512_S64_d1_2 : S64x512x512.ReducesTo [1, 2] S64
  bcast_S64_S64x1x1_0 : S64.BroadcastsInDim S64x1x1 (![0] : Fin 1 → Fin S64x1x1.rank)
  bcast_S64x1x1_S64x512x512_0_1_2 : S64x1x1.BroadcastsInDim S64x512x512 (![0, 1, 2] : Fin 3 → Fin S64x512x512.rank)
  reducesTo_S64_S_d0 : S64.ReducesTo [0] S_
  dot_S64x512x256_S64x256x512_S64x512x512_2_1_1_2_0_0_wf : DotDims.WF S64x512x256 S64x256x512 S64x512x512 [2] [1] [1] [2] [0] [0]

variable [Facts₀]

def dot_S64x512x256_S64x256x512_S64x512x512_2_1_1_2_0_0 : DotDims S64x512x256 S64x256x512 S64x512x512 where
  lhsContracting := [2]
  rhsContracting := [1]
  lhsNonContracting := [1]
  rhsNonContracting := [2]
  lhsBatch := [0]
  rhsBatch := [0]
  wf := dot_S64x512x256_S64x256x512_S64x512x512_2_1_1_2_0_0_wf

class Facts : Prop extends Facts₀ where

variable [Facts]
-- ==== Proof.LossSpec.lean ====
/-
  The mathematics both programs compute, stated once over the extended reals with no program in sight.

  One sample is a 0/1-valued (in fact arbitrary) mask μ on 512 rows and two 512×256 tables (student, teacher).
  A table is first masked row by row, e i k = x i k · μ i. For a masked table e:
    sqn e i   = Σ_k e i k · e i k                     the squared norm of row i,
    gram e i j = Σ_k e i k · e j k                    the inner product of rows i and j,
    dist e i j = sqrt (max (sqn i + sqn j − 2·gram i j) ε) · (1 − [i = j])   the pairwise distance, diagonal zeroed.
  With pm i j = μ i · μ j (both rows positive), offdiag = pm · (1 − [i = j]), npos = Σ_i μ i:
    meanDist e = if npos > 1 then (Σ_i Σ_j dist e i j · offdiag i j) / max (npos·(npos − 1)) 1 else 1,
    diff i j   = dist s i j / meanDist s − dist t i j / meanDist t,
    huber d    = if |d| < 1 then ½·d·d else |d| − ½,
    sampleLoss = if npos > 1 then (Σ_i Σ_j huber (diff i j) · pm i j) / max npos 1 else 0,
  and the result is the sum of sampleLoss over the 64 samples.

  The float constants stay the words the programs print (1, 2, ½, ε = the f32 nearest 1e-12, 0): the same word
  reads the same on both sides, so none of them is ever evaluated. Comparison and selection stay the
  instance's own (`Ideal.cmp`, `Scalar.select`): both sides select on the same compared values.
-/
import Idealize.ShloMosaic.PureOps.Ideal
import Idealize.ShloMosaic.Lib.ValueIdx

noncomputable section

namespace Cert.PairLoss

open Idealize.ShloMosaic Idealize.ShloMosaic.ValueIdx

/-- The f32 words of 1, 2, ½, ε (nearest 1e-12) and 0, read as extended reals. -/
abbrev c1 : EReal := Ideal.ofBits .f32 0x3F800000#32
abbrev c2 : EReal := Ideal.ofBits .f32 0x40000000#32
abbrev chalf : EReal := Ideal.ofBits .f32 0x3F000000#32
abbrev ceps : EReal := Ideal.ofBits .f32 0x2B8CBCCC#32
abbrev c0 : EReal := Ideal.ofBits .f32 0x00000000#32

/-- The identity matrix's entry. -/
def eye (i j : Fin 512) : EReal := if i = j then 1 else 0

/-- One minus the identity: 0 on the diagonal, 1 off it. -/
def offEye (i j : Fin 512) : EReal := c1 - eye i j

/-- A table masked row by row. -/
def masked (μ : Fin 512 → EReal) (x : Fin 512 → Fin 256 → EReal) (i : Fin 512) (k : Fin 256) : EReal := x i k * μ i

/-- The squared norm of row `i`. -/
def sqn (e : Fin 512 → Fin 256 → EReal) (i : Fin 512) : EReal := ∑ k : Fin 256, e i k * e i k

/-- The inner product of rows `i` and `j`. -/
def gram (e : Fin 512 → Fin 256 → EReal) (i j : Fin 512) : EReal := ∑ k : Fin 256, e i k * e j k

/-- The distance between rows `i` and `j`, clipped below at ε before the root, zero on the diagonal. -/
def dist (e : Fin 512 → Fin 256 → EReal) (i j : Fin 512) : EReal :=
  Ideal.sqrt (max (sqn e i + sqn e j - c2 * gram e i j) ceps) * offEye i j

/-- Both rows positive. -/
def pm (μ : Fin 512 → EReal) (i j : Fin 512) : EReal := μ i * μ j

/-- Both rows positive and different. -/
def offdiag (μ : Fin 512 → EReal) (i j : Fin 512) : EReal := pm μ i j * offEye i j

/-- The number of positive rows. -/
def npos (μ : Fin 512 → EReal) : EReal := ∑ i : Fin 512, μ i

/-- More than one positive row. -/
def valid (μ : Fin 512 → EReal) : BitVec 1 := Ideal.cmp .ogt (npos μ) c1

/-- The number of ordered pairs of different positive rows, at least 1. -/
def safeCnt (μ : Fin 512 → EReal) : EReal := max (npos μ * (npos μ - c1)) c1

/-- The mean distance over pairs of different positive rows (1 when there is no such pair). -/
def meanDist (μ : Fin 512 → EReal) (e : Fin 512 → Fin 256 → EReal) : EReal :=
  Scalar.select (valid μ) (Ideal.div (∑ i : Fin 512, ∑ j : Fin 512, dist e i j * offdiag μ i j) (safeCnt μ)) c1

/-- The difference of the two normalised distances. -/
def diff (μ : Fin 512 → EReal) (s t : Fin 512 → Fin 256 → EReal) (i j : Fin 512) : EReal :=
  Ideal.div (dist s i j) (meanDist μ s) - Ideal.div (dist t i j) (meanDist μ t)

/-- The smooth-L1 (Huber) penalty with threshold 1. -/
def huber (d : EReal) : EReal :=
  Scalar.select (Ideal.cmp .olt (max d (-d)) c1) (chalf * d * d) (max d (-d) - chalf)

/-- One sample's loss, from its mask and its two MASKED tables. -/
def sampleLoss (μ : Fin 512 → EReal) (s t : Fin 512 → Fin 256 → EReal) : EReal :=
  Scalar.select (valid μ) (Ideal.div (∑ i : Fin 512, ∑ j : Fin 512, huber (diff μ s t i j) * pm μ i j) (max (npos μ) c1)) c0

/-- Sample `n`'s mask: the integer targets read as numbers. -/
def maskOf (x2 : (⟨2, ![64, 512]⟩ : Shape).Idx → BitVec 32) (n : Fin 64) (i : Fin 512) : EReal :=
  FloatOps.sitofp (F := Ideal) .f32 (x2 (ix2 n i))

/-- Sample `n`'s table. -/
def tableOf (x : (⟨3, ![64, 512, 256]⟩ : Shape).Idx → EReal) (n : Fin 64) (i : Fin 512) (k : Fin 256) : EReal :=
  x (ix3 n i k)

/-- Sample `n`'s loss from the three argument arrays. -/
def lossOf (x0 x1 : (⟨3, ![64, 512, 256]⟩ : Shape).Idx → EReal) (x2 : (⟨2, ![64, 512]⟩ : Shape).Idx → BitVec 32)
    (n : Fin 64) : EReal :=
  sampleLoss (maskOf x2 n) (masked (maskOf x2 n) (tableOf x0 n)) (masked (maskOf x2 n) (tableOf x1 n))

/-- The whole result: the sum of the samples' losses. -/
def total (x0 x1 : (⟨3, ![64, 512, 256]⟩ : Shape).Idx → EReal) (x2 : (⟨2, ![64, 512]⟩ : Shape).Idx → BitVec 32) : EReal :=
  ∑ n : Fin 64, lossOf x0 x1 x2 n

end Cert.PairLoss

end
-- ==== Proof.RefSums.lean ====
/-
  Sums over two axes read by coordinates.

  A sum of a rank-3 array [64, 512, 512] over its last two axes, read at the sample n, is the initial value plus the
  double sum over the two dropped coordinates: the indices that drop to n are exactly the (n, i, j), and (i, j) ↦ (n, i, j)
  is a bijection onto them.
-/
import Idealize.ShloMosaic.Lib.ValueIdx
import Idealize.ShloMosaic.PureOps.Ideal.Laws

noncomputable section

namespace Cert.ReferenceIdeal.RefValue

open Idealize.ShloMosaic Idealize.ShloMosaic.ValueIdx

/-- Dropping the last two coordinates of (a, i, j) leaves a: an index drops to n exactly when its first coordinate is n. -/
theorem drop_d12_eq_iff (h' : (⟨3, ![64, 512, 512]⟩ : Shape).ReducesTo [1, 2] ⟨1, ![64]⟩)
    (idx : (⟨3, ![64, 512, 512]⟩ : Shape).Idx) (n : Fin 64) : h'.drop idx = ix1 n ↔ idx 0 = n := by
  have h0 : ((h'.drop idx 0 : Fin 64) : Nat) = (idx 0 : Fin 64) := Shape.ReducesTo.drop_apply_val_of_eq h' idx 0 0
  constructor
  · intro h
    have h1 : h'.drop idx 0 = n := congrFun h 0
    exact Fin.ext (by rw [← h0, h1])
  · intro h
    funext b
    match b with
    | ⟨0, _⟩ => exact Fin.ext (h0.trans (congrArg Fin.val h))

/-- The host's sum over axes [1, 2] of a [64, 512, 512] array, at sample n: the initial value plus the double sum. -/
theorem hostReduceAdd_d12 (h' : (⟨3, ![64, 512, 512]⟩ : Shape).ReducesTo [1, 2] ⟨1, ![64]⟩)
    (x : (⟨3, ![64, 512, 512]⟩ : Shape).Idx → EReal) (init : EReal) (n : Fin 64) :
    Ideal.hostReduceAdd h' x init (ix1 n) = init + ∑ i : Fin 512, ∑ j : Fin 512, x (ix3 n i j) := by
  unfold Ideal.hostReduceAdd
  congr 1
  rw [← Fintype.sum_prod_type']
  refine Finset.sum_bij' (fun idx _ => ((idx 1 : Fin 512), (idx 2 : Fin 512))) (fun p _ => ix3 n p.1 p.2) ?_ ?_ ?_ ?_ ?_
  · intro a _; exact Finset.mem_univ _
  · intro p _
    rw [Finset.mem_filter]
    exact ⟨Finset.mem_univ _, (drop_d12_eq_iff h' _ n).mpr rfl⟩
  · intro a ha
    rw [Finset.mem_filter] at ha
    have h0 : a 0 = n := (drop_d12_eq_iff h' a n).mp ha.2
    rw [← h0]
    exact (eq_ix3 a).symm
  · intro p _; rfl
  · intro a ha
    rw [Finset.mem_filter] at ha
    have h0 : a 0 = n := (drop_d12_eq_iff h' a n).mp ha.2
    rw [← h0]
    exact congrArg x (eq_ix3 a)

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The identity matrix's entry as a program computes it: the row number (plus a zero word) and the column number as
    32-bit words, compared for equality, the resulting bit read as a number. Both numbers are below 512, so the words
    are equal exactly when the numbers are. -/
theorem eye_word (i j : Fin 512) :
    FloatOps.uitofp (F := Ideal) .f32 (IntOp.cmpi .eq (IntOp.addi (BitVec.ofNat 32 i.val) 0#32) (BitVec.ofNat 32 j.val))
      = if i = j then (1 : EReal) else 0 := by
  show (((IntOp.cmpi .eq (IntOp.addi (BitVec.ofNat 32 i.val) 0#32) (BitVec.ofNat 32 j.val)).toNat : ℝ) : EReal) = _
  unfold IntOp.cmpi IntOp.addi
  rw [BitVec.add_zero]
  by_cases h : i = j
  · subst h; simp
  · rw [if_neg h]
    have hne : ¬ (BitVec.ofNat 32 i.val = BitVec.ofNat 32 j.val) := by
      intro e
      apply h
      have e' := congrArg BitVec.toNat e
      simp only [BitVec.toNat_ofNat] at e'
      apply Fin.ext
      have hi := i.isLt
      have hj := j.isLt
      omega
    simp [hne]

end Cert.ReferenceIdeal.RefValue

end
-- ==== Proof.RefValue.lean ====
/-
  The reference program's result is the specified loss.

  The reference computes, sample by sample: the two tables masked row by row; each masked table's squared row norms and
  row inner products, and from them the pairwise distances (clipped below before the root, the diagonal zeroed by one minus
  the identity matrix); the mask's pair products and the count of positive rows; each table's mean distance over pairs of
  different positive rows; the penalty of the difference of the normalised distances, summed over pairs of positive rows
  and divided by the count; and finally the sum over the samples. Each lemma below reads one group of the program's stages
  at explicit coordinates (sample n, rows i and j, feature k) as the corresponding term of the specification; the last
  one, ref_total, is the whole statement. Sums with a zero initial value lose it (the zero word is the number 0); a
  broadcast or transposed array is read at the source index, which is computed coordinate by coordinate; the clip's two
  operands are swapped with respect to the specification, and the maximum commutes; the host's absolute value of d is the
  larger of d and -d. No other constant is ever evaluated: the same word reads the same on both sides.
-/
import proofs.«111974_j50294067036307_2_alg».proof.Proof.RefReadP
import proofs.«111974_j50294067036307_2_alg».proof.Proof.LossSpec
import proofs.«111974_j50294067036307_2_alg».proof.Proof.RefSums
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

variable (x0 x1 : (⟨S64x512x256, .f32⟩ : BufTy).Contents (Elt Ideal)) (x2 : (⟨S64x512, .i32⟩ : BufTy).Contents (Elt Ideal))

/-- The f32 zero word is the number 0. -/
theorem zero_word : FloatOps.ofBits (F := Ideal) .f32 0x00000000#32 = (0 : EReal) := Ideal.ofBits_zero_f32

/-! ## The masked tables -/

theorem ix_v1_v2 (n : Fin 64) (i : Fin 512) (k : Fin 256) : idx_main_v1 (idx_main_v2 (ix3 n i k)) = ix2 n i :=
  funext fun a => Fin.ext (by match a with | ⟨0, _⟩ => rfl | ⟨1, _⟩ => rfl)

/-- The student table masked, at (n, i, k). -/
theorem v3_at (n : Fin 64) (i : Fin 512) (k : Fin 256) :
    val_main_v3 (F := Ideal) x0 x2 (ix3 n i k) = PairLoss.masked (PairLoss.maskOf x2 n) (PairLoss.tableOf x0 n) i k := by
  rw [val_main_v3_apply, val_main_v2_apply, val_main_v1_apply, val_main_v0_apply, ix_v1_v2]
  rfl

/-! ## Squared norms and inner products -/

theorem ix_v8 (n : Fin 64) (i : Fin 512) (k : Fin 256) : idx_main_v8 (ix2 n i) k = ix3 n i k :=
  funext fun a => Fin.ext (by match a with | ⟨0, _⟩ => rfl | ⟨1, _⟩ => rfl | ⟨2, _⟩ => rfl)

/-- The squared norm of row i of the student's masked table. -/
theorem v8_at (n : Fin 64) (i : Fin 512) :
    val_main_v8 (F := Ideal) x0 x2 (ix2 n i) = PairLoss.sqn (PairLoss.masked (PairLoss.maskOf x2 n) (PairLoss.tableOf x0 n)) i := by
  rw [val_main_v8_apply, val_main_cst_apply, zero_word, zero_add]
  refine Finset.sum_congr rfl fun k _ => ?_
  rw [ix_v8, val_main_v7_apply, v3_at]
  rfl

theorem ix_l10 (n : Fin 64) (i j : Fin 512) (k : Fin 256) : lidx_main_v10 (ix3 n i j) k = ix3 n i k :=
  funext fun a => Fin.ext (by match a with | ⟨0, _⟩ => rfl | ⟨1, _⟩ => rfl | ⟨2, _⟩ => rfl)
theorem ix_r10 (n : Fin 64) (i j : Fin 512) (k : Fin 256) : idx_main_v9 (ridx_main_v10 (ix3 n i j) k) = ix3 n j k :=
  funext fun a => Fin.ext (by match a with | ⟨0, _⟩ => rfl | ⟨1, _⟩ => rfl | ⟨2, _⟩ => rfl)

/-- The inner product of rows i and j of the student's masked table. -/
theorem v10_at (n : Fin 64) (i j : Fin 512) :
    val_main_v10 (F := Ideal) x0 x2 (ix3 n i j) = PairLoss.gram (PairLoss.masked (PairLoss.maskOf x2 n) (PairLoss.tableOf x0 n)) i j := by
  rw [val_main_v10_apply]
  refine Finset.sum_congr rfl fun k _ => ?_
  rw [val_main_v9_apply, ix_l10, ix_r10, v3_at, v3_at]

/-! ## The identity matrix, and one minus it -/

/-- The identity matrix's entry at (i, j). -/
theorem v26_at (i j : Fin 512) : val_main_v26 (F := Ideal) (ix2 i j) = PairLoss.eye i j := by
  rw [val_main_v26_apply, val_main_v25_apply, val_main_v24_apply, val_main_v23_apply, val_main_v22_apply,
    val_main_v21_apply, val_main_c_apply]
  exact eye_word i j

/-- One minus the identity at (i, j). -/
theorem v28_at (i j : Fin 512) : val_main_v28 (F := Ideal) (ix2 i j) = PairLoss.offEye i j := by
  rw [val_main_v28_apply, val_main_v27_apply, val_main_cst_2_apply, v26_at]
  rfl

theorem ix_v29_v30 (n : Fin 64) (i j : Fin 512) : idx_main_v29 (idx_main_v30 (ix3 n i j)) = ix2 i j :=
  funext fun a => Fin.ext (by match a with | ⟨0, _⟩ => rfl | ⟨1, _⟩ => rfl)

/-- The same, repeated over the samples. -/
theorem v30_at (n : Fin 64) (i j : Fin 512) : val_main_v30 (F := Ideal) (ix3 n i j) = PairLoss.offEye i j := by
  rw [val_main_v30_apply, val_main_v29_apply, ix_v29_v30, v28_at]

/-! ## The pairwise distances -/

theorem ix_v11_v13 (n : Fin 64) (i j : Fin 512) : idx_main_v11 (idx_main_v13 (ix3 n i j)) = ix2 n i :=
  funext fun a => Fin.ext (by match a with | ⟨0, _⟩ => rfl | ⟨1, _⟩ => rfl)
theorem ix_v12_v14 (n : Fin 64) (i j : Fin 512) : idx_main_v12 (idx_main_v14 (ix3 n i j)) = ix2 n j :=
  funext fun a => Fin.ext (by match a with | ⟨0, _⟩ => rfl | ⟨1, _⟩ => rfl)

/-- The squared distance before the clip: the two squared norms minus twice the inner product. -/
theorem v18_at (n : Fin 64) (i j : Fin 512) :
    val_main_v18 (F := Ideal) x0 x2 (ix3 n i j)
      = PairLoss.sqn (PairLoss.masked (PairLoss.maskOf x2 n) (PairLoss.tableOf x0 n)) i
        + PairLoss.sqn (PairLoss.masked (PairLoss.maskOf x2 n) (PairLoss.tableOf x0 n)) j
        - PairLoss.c2 * PairLoss.gram (PairLoss.masked (PairLoss.maskOf x2 n) (PairLoss.tableOf x0 n)) i j := by
  rw [val_main_v18_apply, val_main_v17_apply, val_main_v16_apply, val_main_cst_0_apply, val_main_v15_apply,
    val_main_v14_apply, val_main_v13_apply, val_main_v12_apply, val_main_v11_apply, ix_v11_v13, ix_v12_v14,
    v8_at, v8_at, v10_at]
  rfl

/-- The student's distance between rows i and j. The program clips with the bound as the first operand of the maximum,
    the specification with it as the second: the maximum commutes. -/
theorem v31_at (n : Fin 64) (i j : Fin 512) :
    val_main_v31 (F := Ideal) x0 x2 (ix3 n i j)
      = PairLoss.dist (PairLoss.masked (PairLoss.maskOf x2 n) (PairLoss.tableOf x0 n)) i j := by
  rw [val_main_v31_apply, v30_at, val_main_v20_apply, val_main_v19_apply, val_main_call0_v1_apply,
    val_main_call0_v0_apply, val_main_cst_1_apply, v18_at]
  unfold PairLoss.dist
  exact congrArg (fun t => Ideal.sqrt t * PairLoss.offEye i j) (max_comm _ _)

/-! # The teacher's side: the same stages over the second table -/
/-! ## (teacher) The masked tables -/

theorem ix_v4_v5 (n : Fin 64) (i : Fin 512) (k : Fin 256) : idx_main_v4 (idx_main_v5 (ix3 n i k)) = ix2 n i :=
  funext fun a => Fin.ext (by match a with | ⟨0, _⟩ => rfl | ⟨1, _⟩ => rfl)

/-- The teacher table masked, at (n, i, k). -/
theorem v6_at (n : Fin 64) (i : Fin 512) (k : Fin 256) :
    val_main_v6 (F := Ideal) x1 x2 (ix3 n i k) = PairLoss.masked (PairLoss.maskOf x2 n) (PairLoss.tableOf x1 n) i k := by
  rw [val_main_v6_apply, val_main_v5_apply, val_main_v4_apply, val_main_v0_apply, ix_v4_v5]
  rfl

/-! ## (teacher) Squared norms and inner products -/

theorem ix_v33 (n : Fin 64) (i : Fin 512) (k : Fin 256) : idx_main_v33 (ix2 n i) k = ix3 n i k :=
  funext fun a => Fin.ext (by match a with | ⟨0, _⟩ => rfl | ⟨1, _⟩ => rfl | ⟨2, _⟩ => rfl)

/-- The squared norm of row i of the teacher's masked table. -/
theorem v33_at (n : Fin 64) (i : Fin 512) :
    val_main_v33 (F := Ideal) x1 x2 (ix2 n i) = PairLoss.sqn (PairLoss.masked (PairLoss.maskOf x2 n) (PairLoss.tableOf x1 n)) i := by
  rw [val_main_v33_apply, val_main_cst_3_apply, zero_word, zero_add]
  refine Finset.sum_congr rfl fun k _ => ?_
  rw [ix_v33, val_main_v32_apply, v6_at]
  rfl

theorem ix_l35 (n : Fin 64) (i j : Fin 512) (k : Fin 256) : lidx_main_v35 (ix3 n i j) k = ix3 n i k :=
  funext fun a => Fin.ext (by match a with | ⟨0, _⟩ => rfl | ⟨1, _⟩ => rfl | ⟨2, _⟩ => rfl)
theorem ix_r35 (n : Fin 64) (i j : Fin 512) (k : Fin 256) : idx_main_v34 (ridx_main_v35 (ix3 n i j) k) = ix3 n j k :=
  funext fun a => Fin.ext (by match a with | ⟨0, _⟩ => rfl | ⟨1, _⟩ => rfl | ⟨2, _⟩ => rfl)

/-- The inner product of rows i and j of the teacher's masked table. -/
theorem v35_at (n : Fin 64) (i j : Fin 512) :
    val_main_v35 (F := Ideal) x1 x2 (ix3 n i j) = PairLoss.gram (PairLoss.masked (PairLoss.maskOf x2 n) (PairLoss.tableOf x1 n)) i j := by
  rw [val_main_v35_apply]
  refine Finset.sum_congr rfl fun k _ => ?_
  rw [val_main_v34_apply, ix_l35, ix_r35, v6_at, v6_at]

/-! ## (teacher) The identity matrix, and one minus it -/

/-- The identity matrix's entry at (i, j). -/
theorem v51_at (i j : Fin 512) : val_main_v51 (F := Ideal) (ix2 i j) = PairLoss.eye i j := by
  rw [val_main_v51_apply, val_main_v50_apply, val_main_v49_apply, val_main_v48_apply, val_main_v47_apply,
    val_main_v46_apply, val_main_c_6_apply]
  exact eye_word i j

/-- One minus the identity at (i, j). -/
theorem v53_at (i j : Fin 512) : val_main_v53 (F := Ideal) (ix2 i j) = PairLoss.offEye i j := by
  rw [val_main_v53_apply, val_main_v52_apply, val_main_cst_7_apply, v51_at]
  rfl

theorem ix_v54_v55 (n : Fin 64) (i j : Fin 512) : idx_main_v54 (idx_main_v55 (ix3 n i j)) = ix2 i j :=
  funext fun a => Fin.ext (by match a with | ⟨0, _⟩ => rfl | ⟨1, _⟩ => rfl)

/-- The same, repeated over the samples. -/
theorem v55_at (n : Fin 64) (i j : Fin 512) : val_main_v55 (F := Ideal) (ix3 n i j) = PairLoss.offEye i j := by
  rw [val_main_v55_apply, val_main_v54_apply, ix_v54_v55, v53_at]

/-! ## (teacher) The pairwise distances -/

theorem ix_v36_v38 (n : Fin 64) (i j : Fin 512) : idx_main_v36 (idx_main_v38 (ix3 n i j)) = ix2 n i :=
  funext fun a => Fin.ext (by match a with | ⟨0, _⟩ => rfl | ⟨1, _⟩ => rfl)
theorem ix_v37_v39 (n : Fin 64) (i j : Fin 512) : idx_main_v37 (idx_main_v39 (ix3 n i j)) = ix2 n j :=
  funext fun a => Fin.ext (by match a with | ⟨0, _⟩ => rfl | ⟨1, _⟩ => rfl)

/-- The squared distance before the clip: the two squared norms minus twice the inner product. -/
theorem v43_at (n : Fin 64) (i j : Fin 512) :
    val_main_v43 (F := Ideal) x1 x2 (ix3 n i j)
      = PairLoss.sqn (PairLoss.masked (PairLoss.maskOf x2 n) (PairLoss.tableOf x1 n)) i
        + PairLoss.sqn (PairLoss.masked (PairLoss.maskOf x2 n) (PairLoss.tableOf x1 n)) j
        - PairLoss.c2 * PairLoss.gram (PairLoss.masked (PairLoss.maskOf x2 n) (PairLoss.tableOf x1 n)) i j := by
  rw [val_main_v43_apply, val_main_v42_apply, val_main_v41_apply, val_main_cst_4_apply, val_main_v40_apply,
    val_main_v39_apply, val_main_v38_apply, val_main_v37_apply, val_main_v36_apply, ix_v36_v38, ix_v37_v39,
    v33_at, v33_at, v35_at]
  rfl

/-- The teacher's distance between rows i and j. The program clips with the bound as the first operand of the maximum,
    the specification with it as the second: the maximum commutes. -/
theorem v56_at (n : Fin 64) (i j : Fin 512) :
    val_main_v56 (F := Ideal) x1 x2 (ix3 n i j)
      = PairLoss.dist (PairLoss.masked (PairLoss.maskOf x2 n) (PairLoss.tableOf x1 n)) i j := by
  rw [val_main_v56_apply, v55_at, val_main_v45_apply, val_main_v44_apply, val_main_call1_v1_apply,
    val_main_call1_v0_apply, val_main_cst_5_apply, v43_at]
  unfold PairLoss.dist
  exact congrArg (fun t => Ideal.sqrt t * PairLoss.offEye i j) (max_comm _ _)

/-! ## The mask's pair products, the number of positive rows, and what derives from it -/

theorem ix_v63_v65 (n : Fin 64) (i j : Fin 512) : idx_main_v63 (idx_main_v65 (ix3 n i j)) = ix2 n i :=
  funext fun a => Fin.ext (by match a with | ⟨0, _⟩ => rfl | ⟨1, _⟩ => rfl)
theorem ix_v64_v66 (n : Fin 64) (i j : Fin 512) : idx_main_v64 (idx_main_v66 (ix3 n i j)) = ix2 n j :=
  funext fun a => Fin.ext (by match a with | ⟨0, _⟩ => rfl | ⟨1, _⟩ => rfl)

/-- Both rows positive. -/
theorem v67_at (n : Fin 64) (i j : Fin 512) :
    val_main_v67 (F := Ideal) x2 (ix3 n i j) = PairLoss.pm (PairLoss.maskOf x2 n) i j := by
  rw [val_main_v67_apply, val_main_v66_apply, val_main_v65_apply, val_main_v64_apply, val_main_v63_apply,
    ix_v63_v65, ix_v64_v66, val_main_v0_apply, val_main_v0_apply]
  rfl

/-- The identity matrix once more. -/
theorem v62_at (i j : Fin 512) : val_main_v62 (F := Ideal) (ix2 i j) = PairLoss.eye i j := by
  rw [val_main_v62_apply, val_main_v61_apply, val_main_v60_apply, val_main_v59_apply, val_main_v58_apply,
    val_main_v57_apply, val_main_c_8_apply]
  exact eye_word i j

theorem v69_at (i j : Fin 512) : val_main_v69 (F := Ideal) (ix2 i j) = PairLoss.offEye i j := by
  rw [val_main_v69_apply, val_main_v68_apply, val_main_cst_9_apply, v62_at]
  rfl

theorem ix_v70_v71 (n : Fin 64) (i j : Fin 512) : idx_main_v70 (idx_main_v71 (ix3 n i j)) = ix2 i j :=
  funext fun a => Fin.ext (by match a with | ⟨0, _⟩ => rfl | ⟨1, _⟩ => rfl)

/-- Both rows positive and different. -/
theorem v72_at (n : Fin 64) (i j : Fin 512) :
    val_main_v72 (F := Ideal) x2 (ix3 n i j) = PairLoss.offdiag (PairLoss.maskOf x2 n) i j := by
  rw [val_main_v72_apply, v67_at, val_main_v71_apply, val_main_v70_apply, ix_v70_v71, v69_at]
  rfl

theorem ix_v73 (n : Fin 64) (k : Fin 512) : idx_main_v73 (ix1 n) k = ix2 n k :=
  funext fun a => Fin.ext (by match a with | ⟨0, _⟩ => rfl | ⟨1, _⟩ => rfl)

/-- The number of positive rows of sample n. -/
theorem v73_at (n : Fin 64) : val_main_v73 (F := Ideal) x2 (ix1 n) = PairLoss.npos (PairLoss.maskOf x2 n) := by
  rw [val_main_v73_apply, val_main_cst_10_apply, zero_word, zero_add]
  refine Finset.sum_congr rfl fun k _ => ?_
  rw [ix_v73, val_main_v0_apply]
  rfl

/-- More than one positive row. -/
theorem v78_at (n : Fin 64) : val_main_v78 (F := Ideal) x2 (ix1 n) = PairLoss.valid (PairLoss.maskOf x2 n) := by
  rw [val_main_v78_apply, v73_at, val_main_v77_apply, val_main_cst_12_apply]
  rfl

/-- The number of ordered pairs of different positive rows, at least 1. -/
theorem v80_at (n : Fin 64) : val_main_v80 (F := Ideal) x2 (ix1 n) = PairLoss.safeCnt (PairLoss.maskOf x2 n) := by
  rw [val_main_v80_apply, val_main_v79_apply, val_main_cst_13_apply, val_main_v76_apply, val_main_v75_apply,
    val_main_v74_apply, val_main_cst_11_apply, v73_at]
  rfl

/-- The number of positive rows, at least 1. -/
theorem v108_at (n : Fin 64) :
    val_main_v108 (F := Ideal) x2 (ix1 n) = max (PairLoss.npos (PairLoss.maskOf x2 n)) PairLoss.c1 := by
  rw [val_main_v108_apply, val_main_v107_apply, val_main_cst_22_apply, v73_at]
  rfl

/-! # The means, the penalty and the total -/

/-- A sum over axes [1, 2] of a [64, 512, 512] array as the program writes it, read at sample n: the initial value plus
    the double sum over the two dropped coordinates. -/
theorem reduce12_at (y : (⟨S64x512x512, .f32⟩ : BufTy).Contents (Elt Ideal)) (v : (⟨S_, .f32⟩ : BufTy).Contents (Elt Ideal))
    (n : Fin 64) :
    Host.reduceAdd (F := Ideal) (φ := .f32) y v reducesTo_S64x512x512_S64_d1_2 h_S_ (ix1 n)
      = v (Shape.Idx.first h_S_) + ∑ i : Fin 512, ∑ j : Fin 512, y (ix3 n i j) := by
  simp only [Host.reduceAdd, Ideal.hostReduceAdd_def]
  exact hostReduceAdd_d12 reducesTo_S64x512x512_S64_d1_2 y _ n

/-- The student's distances summed over the pairs of different positive rows. -/
theorem v82_at (n : Fin 64) :
    val_main_v82 (F := Ideal) x0 x2 (ix1 n)
      = ∑ i : Fin 512, ∑ j : Fin 512,
          PairLoss.dist (PairLoss.masked (PairLoss.maskOf x2 n) (PairLoss.tableOf x0 n)) i j * PairLoss.offdiag (PairLoss.maskOf x2 n) i j := by
  unfold val_main_v82
  refine (reduce12_at _ _ n).trans ?_
  rw [val_main_cst_14_apply, zero_word, zero_add]
  refine Finset.sum_congr rfl fun i _ => Finset.sum_congr rfl fun j _ => ?_
  rw [val_main_v81_apply, v31_at, v72_at]
  rfl

/-- The teacher's. -/
theorem v85_at (n : Fin 64) :
    val_main_v85 (F := Ideal) x1 x2 (ix1 n)
      = ∑ i : Fin 512, ∑ j : Fin 512,
          PairLoss.dist (PairLoss.masked (PairLoss.maskOf x2 n) (PairLoss.tableOf x1 n)) i j * PairLoss.offdiag (PairLoss.maskOf x2 n) i j := by
  unfold val_main_v85
  refine (reduce12_at _ _ n).trans ?_
  rw [val_main_cst_15_apply, zero_word, zero_add]
  refine Finset.sum_congr rfl fun i _ => Finset.sum_congr rfl fun j _ => ?_
  rw [val_main_v84_apply, v56_at, v72_at]
  rfl

/-- The student's mean distance (1 when no pair counts). -/
theorem v87_at (n : Fin 64) :
    val_main_v87 (F := Ideal) x0 x2 (ix1 n)
      = PairLoss.meanDist (PairLoss.maskOf x2 n) (PairLoss.masked (PairLoss.maskOf x2 n) (PairLoss.tableOf x0 n)) := by
  rw [val_main_v87_apply, v78_at, val_main_v83_apply, v82_at, v80_at, val_main_call2_v1_apply, val_main_call2_v0_apply,
    val_main_cst_16_apply]
  rfl

/-- The teacher's. -/
theorem v88_at (n : Fin 64) :
    val_main_v88 (F := Ideal) x1 x2 (ix1 n)
      = PairLoss.meanDist (PairLoss.maskOf x2 n) (PairLoss.masked (PairLoss.maskOf x2 n) (PairLoss.tableOf x1 n)) := by
  rw [val_main_v88_apply, v78_at, val_main_v86_apply, v85_at, v80_at, val_main_call3_v1_apply, val_main_call3_v0_apply,
    val_main_cst_17_apply]
  rfl

theorem ix_v89_v90 (n : Fin 64) (i j : Fin 512) : idx_main_v89 (idx_main_v90 (ix3 n i j)) = ix1 n :=
  funext fun a => Fin.ext (by match a with | ⟨0, _⟩ => rfl)
theorem ix_v92_v93 (n : Fin 64) (i j : Fin 512) : idx_main_v92 (idx_main_v93 (ix3 n i j)) = ix1 n :=
  funext fun a => Fin.ext (by match a with | ⟨0, _⟩ => rfl)

/-- The difference of the two normalised distances. -/
theorem v95_at (n : Fin 64) (i j : Fin 512) :
    val_main_v95 (F := Ideal) x0 x1 x2 (ix3 n i j)
      = PairLoss.diff (PairLoss.maskOf x2 n) (PairLoss.masked (PairLoss.maskOf x2 n) (PairLoss.tableOf x0 n))
          (PairLoss.masked (PairLoss.maskOf x2 n) (PairLoss.tableOf x1 n)) i j := by
  rw [val_main_v95_apply, val_main_v91_apply, val_main_v94_apply, v31_at, v56_at, val_main_v90_apply, val_main_v89_apply,
    ix_v89_v90, v87_at, val_main_v93_apply, val_main_v92_apply, ix_v92_v93, v88_at]
  rfl

/-- The penalty of that difference. The host's absolute value of d is the larger of d and -d. -/
theorem v104_at (n : Fin 64) (i j : Fin 512) :
    val_main_v104 (F := Ideal) x0 x1 x2 (ix3 n i j)
      = PairLoss.huber (PairLoss.diff (PairLoss.maskOf x2 n) (PairLoss.masked (PairLoss.maskOf x2 n) (PairLoss.tableOf x0 n))
          (PairLoss.masked (PairLoss.maskOf x2 n) (PairLoss.tableOf x1 n)) i j) := by
  rw [val_main_v104_apply, val_main_v98_apply, val_main_v101_apply, val_main_v103_apply, val_main_v100_apply,
    val_main_v96_apply, val_main_v97_apply, val_main_cst_18_apply, val_main_v99_apply, val_main_cst_19_apply,
    val_main_v102_apply, val_main_cst_20_apply, v95_at]
  rfl

/-- The penalties summed over the pairs of positive rows. -/
theorem v106_at (n : Fin 64) :
    val_main_v106 (F := Ideal) x0 x1 x2 (ix1 n)
      = ∑ i : Fin 512, ∑ j : Fin 512,
          PairLoss.huber (PairLoss.diff (PairLoss.maskOf x2 n) (PairLoss.masked (PairLoss.maskOf x2 n) (PairLoss.tableOf x0 n))
            (PairLoss.masked (PairLoss.maskOf x2 n) (PairLoss.tableOf x1 n)) i j) * PairLoss.pm (PairLoss.maskOf x2 n) i j := by
  unfold val_main_v106
  refine (reduce12_at _ _ n).trans ?_
  rw [val_main_cst_21_apply, zero_word, zero_add]
  refine Finset.sum_congr rfl fun i _ => Finset.sum_congr rfl fun j _ => ?_
  rw [val_main_v105_apply, v104_at, v67_at]
  rfl

/-- Sample n's loss. -/
theorem v110_at (n : Fin 64) : val_main_v110 (F := Ideal) x0 x1 x2 (ix1 n) = PairLoss.lossOf x0 x1 x2 n := by
  rw [val_main_v110_apply, v78_at, val_main_v109_apply, v106_at, v108_at, val_main_call5_v1_apply, val_main_call5_v0_apply,
    val_main_cst_23_apply]
  rfl

/-- THE REFERENCE'S VALUE: the sum of the samples' losses. -/
theorem ref_total :
    Cert.ReferenceIdeal.ReadP.val_main_v111 (F := Ideal) x0 x1 x2 = fun _ => Cert.PairLoss.total x0 x1 x2 := by
  funext i
  rw [val_main_v111_apply, val_main_cst_24_apply, zero_word, zero_add, sum_idx1]
  exact Finset.sum_congr rfl fun n _ => v110_at x0 x1 x2 n

end Cert.ReferenceIdeal.RefValue

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.LibColReduce.lean ====
/-
  A column reduced to one cell, and a column laid out as a row: the layout steps read at an index.

  A reduction kept as a column `[a, 1]` meets a matrix `[b, a]` along its columns by being transposed to a row `[1, a]`
  and broadcast down the rows: entry `(p, c)` of the broadcast is the column's entry `c`. Summing a column `[a, 1]`
  over its first axis leaves one cell, the sum of its `a` entries; a one-entry vector cast to a `[1, 1]` block is its entry.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColReduce

open Idealize.ShloMosaic Idealize.ShloMosaic.ValueIdx

variable {α : Type}

/-- A column `[a, 1]` transposed to a row and broadcast down the `b` rows of a `[b, a]` matrix reads, at `(p, c)`,
    the column's entry `(c, 0)`. -/
theorem broadcastTo_transposed_column_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (c : Fin a) :
    broadcastTo ⟨2, ![b, a]⟩ (transpose ⟨2, ![1, a]⟩ [1, 0] v ht) hb (ix2 p c) = v (ix2 c (0 : Fin 1)) :=
  (broadcastTo_1b_ab_apply _ hb p c).trans (transpose_ix2_apply v ht (0 : Fin 1) c)

/-- Over the one cell of the reduced vector, the column index with `k` on the reduced axis is `(k, u)`. -/
theorem lift_col {a : ℕ} (h : (⟨2, ![a, 1]⟩ : Shape).Reduces [0] ⟨1, ![1]⟩) (u : Fin 1) (k : Fin a) :
    h.lift (ix1 u) k = ix2 k u :=
  funext fun c => Fin.ext (by match c with | ⟨0, _⟩ => rfl | ⟨1, _⟩ => rfl)

variable {φ : FTy}

/-- A column's sum at the extended reals: the sum over its entries. -/
theorem multiReduction_add_col {a : ℕ} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ X acc h hφ hacc (ix1 u) = ∑ k : Fin a, X (ix2 k u) := by
  rw [Ideal.multiReduction_add_single]
  exact Finset.sum_congr rfl fun k _ => congrArg X (lift_col h u k)

end Cert.ColReduce

end
-- ==== Proof.KernelVec.lean ====
/-
  The kernel body's arithmetic, cut into a few named vector functions, each read at an index over the extended reals.

  One grid point works on one sample: a 512×256 table `e` (already masked), from which it forms
    · the 512×512 grid of sums of squared row norms,  (i, j) ↦ Σ_k e i k² + Σ_k e j k²   (`normSums`),
    · twice the Gram matrix,                          (i, j) ↦ 2 · Σ_k e i k · e j k      (`twiceGram`),
    · the clipped distance with the diagonal zeroed   (`distGrid`),
    · a grand total of a product of two grids, rows first and then the column of row sums (`gridTotal`),
    · a mean guarded by a comparison                  (`guardedMean`).
  The row sums are kept as a column [512, 1]; the column meets the grid again by being broadcast along the rows, and,
  transposed to a row [1, 512], down the columns. The matrix product contracts the second axis of BOTH operands (rows
  against rows), so its entry (i, j) is Σ_k e i k · e j k. Each lemma below says what one of these functions holds at
  an index; nothing here mentions a memory or a run.
-/
import proofs.«111974_j50294067036307_2_alg».proof.Proof.Gen.KernelIdeal
import proofs.«111974_j50294067036307_2_alg».proof.Proof.LossSpec
import proofs.«111974_j50294067036307_2_alg».proof.Proof.LibRowReduce
import proofs.«111974_j50294067036307_2_alg».proof.Proof.LibColReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyVec

open Cert.KernelIdeal Cert.KernelIdeal.Facts₀ Idealize.ShloMosaic Idealize.ShloMosaic.ValueIdx Cert.PairLoss

/-! ## The named pieces -/

/-- A table's rows as a function of two coordinates. -/
def rows (e : FVec Ideal S512x256 .f32) (i : Fin 512) (k : Fin 256) : EReal := e (ix2 i k)

/-- The column of squared row norms. -/
def normCol (e : FVec Ideal S512x256 .f32) : FVec Ideal S512x1 .f32 :=
  shapeCast S512x1 (multiReduction .add [1] S512 (mulf e e) 0x00000000#32 reduces_S512x256_S512 (.inl rfl) rfl) shapeCasts_S512_S512x1

/-- The grid of sums of two squared row norms. -/
def normSums (e : FVec Ideal S512x256 .f32) : FVec Ideal S512x512 .f32 :=
  addf (broadcastTo S512x512 (normCol e) broadcasts_S512x1_S512x512)
    (broadcastTo S512x512 (transpose S1x512 [1, 0] (normCol e) transposes_S512x1_p1_0_S1x512) broadcasts_S1x512_S512x512)

/-- Twice the Gram matrix of the rows. -/
def twiceGram (e : FVec Ideal S512x256 .f32) : FVec Ideal S512x512 .f32 :=
  mulf (broadcast S512x512 (Scalar.ofBits .f32 0x40000000#32))
    (matmul dot_S512x256_S512x256_S512x512_1_1_0_0_n_n none (truncf .bf16 e bitsLt_bf16_f32) (truncf .bf16 e bitsLt_bf16_f32)
      (constant S512x512 .f32 0x00000000#32))

/-- The clipped distance grid, the diagonal zeroed by `off`. -/
def distGrid (sums twog off : FVec Ideal S512x512 .f32) : FVec Ideal S512x512 .f32 :=
  mulf (sqrt (maximumf (subf sums twog) (broadcast S512x512 (Scalar.ofBits .f32 0x2B8CBCCC#32)))) off

/-- The total of the entrywise product of two grids: each row summed, then the column of row sums. -/
def gridTotal (a b : FVec Ideal S512x512 .f32) : FVec Ideal S1x1 .f32 :=
  shapeCast S1x1 (multiReduction .add [0] S1
    (shapeCast S512x1 (multiReduction .add [1] S512 (mulf a b) 0x00000000#32 reduces_S512x512_S512 (.inl rfl) rfl) shapeCasts_S512_S512x1)
    0x00000000#32 reduces_S512x1_S1 (.inl rfl) rfl) shapeCasts_S1_S1x1

/-- The mean distance, guarded: the total over the count where the comparison holds, 1 elsewhere. -/
def guardedMean (ok : IVec S1x1 1) (cnt : FVec Ideal S1x1 .f32) (d w : FVec Ideal S512x512 .f32) : FVec Ideal S1x1 .f32 :=
  select ok (divf (gridTotal d w) cnt) (broadcast S1x1 (Scalar.ofBits .f32 0x3F800000#32))

/-! ## Layout steps read at an index -/

/-- A [1, 1] block broadcast over the grid reads its one entry everywhere. -/
theorem broadcastTo_cell_apply {α : Type} (s : S1x1.Idx → α) (h : S1x1.Broadcasts S512x512) (i j : Fin 512) :
    broadcastTo S512x512 s h (ix2 i j) = s (ix2 (0 : Fin 1) (0 : Fin 1)) := by
  refine broadcastTo_apply s h (ix2 i j) (ix2 (0 : Fin 1) (0 : Fin 1)) fun ax => ?_
  match ax with
  | ⟨0, _⟩ => rfl
  | ⟨1, _⟩ => rfl

/-- The left operand's index at output index `j` and contraction index `q`: row `j 0`, column `q`. -/
theorem lhs_row (j : S512x512.Idx) (q : dot_S512x256_S512x256_S512x512_1_1_0_0_n_n.contr.Idx) : (dot_S512x256_S512x256_S512x512_1_1_0_0_n_n.lhsIdx j q 0).val = (j 0).val := by
  unfold DotDims.lhsIdx
  rw [dif_neg (show ¬(0 : Fin S512x256.rank) ∈ dot_S512x256_S512x256_S512x512_1_1_0_0_n_n.lhsBatch by decide),
    dif_pos (show (0 : Fin S512x256.rank) ∈ dot_S512x256_S512x256_S512x512_1_1_0_0_n_n.lhsNonContracting by decide)]
  rfl
theorem lhs_col (j : S512x512.Idx) (q : dot_S512x256_S512x256_S512x512_1_1_0_0_n_n.contr.Idx) : (dot_S512x256_S512x256_S512x512_1_1_0_0_n_n.lhsIdx j q 1).val = (q ⟨0, by decide⟩).val :=
  dot_S512x256_S512x256_S512x512_1_1_0_0_n_n.lhsIdx_val_of_single rfl j q
/-- The right operand's: row `j 1`, column `q` (both operands are contracted on their second axis). -/
theorem rhs_row (j : S512x512.Idx) (q : dot_S512x256_S512x256_S512x512_1_1_0_0_n_n.contr.Idx) : (dot_S512x256_S512x256_S512x512_1_1_0_0_n_n.rhsIdx j q 0).val = (j 1).val := by
  unfold DotDims.rhsIdx
  rw [dif_neg (show ¬(0 : Fin S512x256.rank) ∈ dot_S512x256_S512x256_S512x512_1_1_0_0_n_n.rhsBatch by decide),
    dif_pos (show (0 : Fin S512x256.rank) ∈ dot_S512x256_S512x256_S512x512_1_1_0_0_n_n.rhsNonContracting by decide)]
  rfl
theorem rhs_col (j : S512x512.Idx) (q : dot_S512x256_S512x256_S512x512_1_1_0_0_n_n.contr.Idx) : (dot_S512x256_S512x256_S512x512_1_1_0_0_n_n.rhsIdx j q 1).val = (q ⟨0, by decide⟩).val :=
  dot_S512x256_S512x256_S512x512_1_1_0_0_n_n.rhsIdx_val_of_single rfl j q

/-- The product that contracts the second axis of both operands, into a zero accumulator: entry (i, j) is the inner
    product of row i of the left operand and row j of the right. -/
theorem matmul_rows_apply {φ₁ φ₂ : FTy} (l : FVec Ideal S512x256 φ₁) (r : FVec Ideal S512x256 φ₂) (i j : Fin 512) :
    matmul dot_S512x256_S512x256_S512x512_1_1_0_0_n_n none l r (constant S512x512 .f32 0x00000000#32) (ix2 i j)
      = ∑ k : Fin 256, l (ix2 i k) * r (ix2 j k) := by
  simp only [matmul]
  rw [Ideal.matmul_constant_zero_apply, ← Equiv.sum_comp (ValueIdx.contrEquiv1 dot_S512x256_S512x256_S512x512_1_1_0_0_n_n 256 rfl rfl).symm]
  refine Finset.sum_congr rfl fun k _ => ?_
  have hk := ValueIdx.contrEquiv1_symm_val dot_S512x256_S512x256_S512x512_1_1_0_0_n_n 256 rfl rfl k
  have el : dot_S512x256_S512x256_S512x512_1_1_0_0_n_n.lhsIdx (ix2 i j) ((ValueIdx.contrEquiv1 dot_S512x256_S512x256_S512x512_1_1_0_0_n_n 256 rfl rfl).symm k) = ix2 i k :=
    funext fun a => Fin.ext (by
      match a with
      | ⟨0, _⟩ => exact lhs_row _ _
      | ⟨1, _⟩ => exact (lhs_col _ _).trans hk)
  have er : dot_S512x256_S512x256_S512x512_1_1_0_0_n_n.rhsIdx (ix2 i j) ((ValueIdx.contrEquiv1 dot_S512x256_S512x256_S512x512_1_1_0_0_n_n 256 rfl rfl).symm k) = ix2 j k :=
    funext fun a => Fin.ext (by
      match a with
      | ⟨0, _⟩ => exact rhs_row _ _
      | ⟨1, _⟩ => exact (rhs_col _ _).trans hk)
  rw [el, er]

/-! ## The named pieces read at an index -/

theorem normCol_apply (e : FVec Ideal S512x256 .f32) (i : Fin 512) :
    normCol e (ix2 i (0 : Fin 1)) = sqn (rows e) i := by
  unfold normCol
  refine (RowReduce.shapeCast_a_a1_apply _ _ i (0 : Fin 1)).trans ?_
  exact RowReduce.multiReduction_add_row (mulf e e) 0x00000000#32 reduces_S512x256_S512 (.inl rfl) rfl i

theorem normSums_apply (e : FVec Ideal S512x256 .f32) (i j : Fin 512) :
    normSums e (ix2 i j) = sqn (rows e) i + sqn (rows e) j := by
  unfold normSums
  rw [addf_apply, RowReduce.broadcastTo_a1_ab_apply, ColReduce.broadcastTo_transposed_column_apply, normCol_apply, normCol_apply]

theorem twiceGram_apply (e : FVec Ideal S512x256 .f32) (i j : Fin 512) :
    twiceGram e (ix2 i j) = c2 * gram (rows e) i j := by
  unfold twiceGram
  rw [mulf_apply, matmul_rows_apply]
  rfl

theorem distGrid_apply (sums twog off : FVec Ideal S512x512 .f32) (x : S512x512.Idx) :
    distGrid sums twog off x = Ideal.sqrt (max (sums x - twog x) ceps) * off x := rfl

theorem gridTotal_apply (a b : FVec Ideal S512x512 .f32) :
    gridTotal a b (ix2 (0 : Fin 1) (0 : Fin 1)) = ∑ i : Fin 512, ∑ j : Fin 512, a (ix2 i j) * b (ix2 i j) := by
  unfold gridTotal
  refine (RowReduce.shapeCast_a_a1_apply _ _ (0 : Fin 1) (0 : Fin 1)).trans ?_
  refine (ColReduce.multiReduction_add_col _ 0x00000000#32 reduces_S512x1_S1 (.inl rfl) rfl (0 : Fin 1)).trans ?_
  refine Finset.sum_congr rfl fun i _ => ?_
  refine (RowReduce.shapeCast_a_a1_apply _ _ i (0 : Fin 1)).trans ?_
  exact RowReduce.multiReduction_add_row (mulf a b) 0x00000000#32 reduces_S512x512_S512 (.inl rfl) rfl i

theorem guardedMean_apply (ok : IVec S1x1 1) (cnt : FVec Ideal S1x1 .f32) (d w : FVec Ideal S512x512 .f32) :
    guardedMean ok cnt d w (ix2 (0 : Fin 1) (0 : Fin 1))
      = Scalar.select (ok (ix2 (0 : Fin 1) (0 : Fin 1)))
          (Ideal.div (∑ i : Fin 512, ∑ j : Fin 512, d (ix2 i j) * w (ix2 i j)) (cnt (ix2 (0 : Fin 1) (0 : Fin 1)))) c1 := by
  unfold guardedMean
  rw [select_apply, divf_apply, gridTotal_apply]
  rfl

end Cert.KernelIdeal.BodyVec

end
-- ==== Proof.KernelPay.lean ====
/-
  What the kernel body stores, read at an index over the extended reals: lane 0 of the stored row holds the sample's
  loss, every other lane holds zero.

  The body sees one sample as three blocks: the mask column [1, 512, 1] and the student and teacher tables
  [1, 512, 256]. Its payloads, in order: the mask as a column; each table masked row by row; one minus the identity
  (an iota compared with an iota); the grid μ i · μ j of positive pairs, and the same off the diagonal; the number of
  positive rows, whether it exceeds 1, and the guarded count of pairs; for each table the sums of squared row norms and
  twice the Gram matrix, the clipped distances, their mean over positive off-diagonal pairs, and the difference of the
  two normalised distance grids; its absolute value, the comparison with 1 and its half; finally the Huber penalty
  summed over positive pairs, divided by the guarded number of positive rows, selected into lane 0.
  Each payload is identified with the specification's function of the mask and the masked tables.
-/
import proofs.«111974_j50294067036307_2_alg».proof.Proof.Gen.KernelIdeal.Skeleton
import proofs.«111974_j50294067036307_2_alg».proof.Proof.KernelVec

noncomputable section

namespace Cert.KernelIdeal.PayValue

open Cert.KernelIdeal Cert.KernelIdeal.Gen Cert.KernelIdeal.BodyVec
open Idealize.ShloMosaic Idealize.ShloMosaic.ValueIdx Cert.PairLoss

/-- The mask held by a mask block: entry `i` of its one column. -/
def blkMask (x2 : Vec Ideal S1x512x1 .f32) (i : Fin 512) : EReal := x2 (ix3 (0 : Fin 1) i (0 : Fin 1))

/-- The table held by a table block. -/
def blkRows (x : Vec Ideal S1x512x256 .f32) (i : Fin 512) (k : Fin 256) : EReal := x (ix3 (0 : Fin 1) i k)

/-! ## Words -/

/-- Two row numbers below 512 compared as 32-bit words, the bit widened and read as a number: the identity's entry. -/
theorem eye_word (i j : Fin 512) :
    FloatOps.sitofp (F := Ideal) .f32 ((IntOp.cmpi .eq (BitVec.ofNat 32 i.val) (BitVec.ofNat 32 j.val)).setWidth 32) = eye i j := by
  show ((((IntOp.cmpi .eq (BitVec.ofNat 32 i.val) (BitVec.ofNat 32 j.val)).setWidth 32).toInt : ℝ) : EReal) = eye i j
  unfold eye
  by_cases h : i = j
  · subst h
    have e : IntOp.cmpi .eq (BitVec.ofNat 32 i.val) (BitVec.ofNat 32 i.val) = 1#1 := by simp [IntOp.cmpi]
    rw [e, if_pos rfl]
    have : ((1#1 : BitVec 1).setWidth 32).toInt = 1 := by decide
    rw [this]; simp
  · have hne : BitVec.ofNat 32 i.val ≠ BitVec.ofNat 32 j.val := by
      intro e
      have e' := congrArg BitVec.toNat e
      simp only [BitVec.toNat_ofNat] at e'
      have hi := i.isLt; have hj := j.isLt
      rw [Nat.mod_eq_of_lt (by omega), Nat.mod_eq_of_lt (by omega)] at e'
      exact h (Fin.ext e')
    have hb : (BitVec.ofNat 32 i.val == BitVec.ofNat 32 j.val) = false := beq_eq_false_iff_ne.mpr hne
    have e : IntOp.cmpi .eq (BitVec.ofNat 32 i.val) (BitVec.ofNat 32 j.val) = 0#1 := by simp [IntOp.cmpi, hb]
    rw [e, if_neg h]
    have : ((0#1 : BitVec 1).setWidth 32).toInt = 0 := by decide
    rw [this]; simp

/-- A lane number below 128 compared with the zero word selects lane 0. -/
theorem lane_select {α : Type} (l : Fin 128) (a b : α) :
    Scalar.select (IntOp.cmpi .eq (BitVec.ofNat 32 l.val) 0#32) a b = if l = 0 then a else b := by
  by_cases h : l = 0
  · subst h
    have e : IntOp.cmpi .eq (BitVec.ofNat 32 (0 : Fin 128).val) 0#32 = 1#1 := by decide
    rw [e, if_pos rfl]; rfl
  · have hne : BitVec.ofNat 32 l.val ≠ 0#32 := by
      intro e
      have e' := congrArg BitVec.toNat e
      simp only [BitVec.toNat_ofNat] at e'
      have hl := l.isLt
      rw [Nat.mod_eq_of_lt (by omega)] at e'
      exact h (Fin.ext e')
    have hb : (BitVec.ofNat 32 l.val == 0#32) = false := beq_eq_false_iff_ne.mpr hne
    have e : IntOp.cmpi .eq (BitVec.ofNat 32 l.val) 0#32 = 0#1 := by simp [IntOp.cmpi, hb]
    rw [e, if_neg h]; rfl

/-- The one entry of a [1, 1] block, extracted. -/
theorem extract_cell {α : Type} (v : S1x1.Idx → α) (h : ∀ a, (![0, 0] : Fin 2 → Nat) a < S1x1.size a) :
    extractAt ![0, 0] v h = v (ix2 (0 : Fin 1) (0 : Fin 1)) :=
  congrArg v (funext fun a => Fin.ext (by match a with | ⟨0, _⟩ => rfl | ⟨1, _⟩ => rfl))

/-! ## The mask's payloads -/

theorem pay2_apply (v0 : Vec Ideal S1x512x1 .f32) (i : Fin 512) :
    k0_pay2 (F := Ideal) v0 (ix2 i (0 : Fin 1)) = blkMask v0 i := by
  unfold k0_pay2
  exact shapeCast_1ab_ab_apply v0 _ i (0 : Fin 1)

theorem pay3_rows (v0 : Vec Ideal S1x512x1 .f32) (v3 : Vec Ideal S1x512x256 .f32) :
    rows (k0_pay3 (F := Ideal) v0 v3) = masked (blkMask v0) (blkRows v3) := by
  funext i k
  unfold rows k0_pay3
  show (shapeCast S512x256 v3 shapeCasts_S1x512x256_S512x256) (ix2 i k)
      * (broadcastTo S512x256 (k0_pay2 (F := Ideal) v0) broadcasts_S512x1_S512x256) (ix2 i k) = _
  rw [shapeCast_1ab_ab_apply, RowReduce.broadcastTo_a1_ab_apply, pay2_apply]
  rfl

theorem pay4_rows (v0 : Vec Ideal S1x512x1 .f32) (v7 : Vec Ideal S1x512x256 .f32) :
    rows (k0_pay4 (F := Ideal) v0 v7) = masked (blkMask v0) (blkRows v7) := by
  funext i k
  unfold rows k0_pay4
  show (shapeCast S512x256 v7 shapeCasts_S1x512x256_S512x256) (ix2 i k)
      * (broadcastTo S512x256 (k0_pay2 (F := Ideal) v0) broadcasts_S512x1_S512x256) (ix2 i k) = _
  rw [shapeCast_1ab_ab_apply, RowReduce.broadcastTo_a1_ab_apply, pay2_apply]
  rfl

theorem pay5_apply (i j : Fin 512) : k0_pay5 (F := Ideal) (ix2 i j) = offEye i j := by
  unfold k0_pay5
  show c1 - FloatOps.sitofp (F := Ideal) .f32
      ((IntOp.cmpi .eq (iota .tc S512x512 32 [0] iota_S512x512_d0_w32 (ix2 i j))
        (iota .tc S512x512 32 [1] iota_S512x512_d1_w32 (ix2 i j))).setWidth 32) = _
  rw [iota_single_apply, iota_single_apply]
  exact congrArg (c1 - ·) (eye_word i j)

theorem pay6_apply (v0 : Vec Ideal S1x512x1 .f32) (i j : Fin 512) :
    k0_pay6 (F := Ideal) v0 (ix2 i j) = pm (blkMask v0) i j := by
  unfold k0_pay6
  show (broadcastTo S512x512 (k0_pay2 (F := Ideal) v0) broadcasts_S512x1_S512x512) (ix2 i j)
      * (broadcastTo S512x512 (transpose S1x512 [1, 0] (k0_pay2 (F := Ideal) v0) transposes_S512x1_p1_0_S1x512)
          broadcasts_S1x512_S512x512) (ix2 i j) = _
  rw [RowReduce.broadcastTo_a1_ab_apply, ColReduce.broadcastTo_transposed_column_apply, pay2_apply, pay2_apply]
  rfl

theorem pay7_apply (v0 : Vec Ideal S1x512x1 .f32) (i j : Fin 512) :
    k0_pay7 (F := Ideal) v0 (ix2 i j) = offdiag (blkMask v0) i j := by
  unfold k0_pay7
  show k0_pay6 (F := Ideal) v0 (ix2 i j) * k0_pay5 (F := Ideal) (ix2 i j) = _
  rw [pay6_apply, pay5_apply]
  rfl

theorem pay8_apply (v0 : Vec Ideal S1x512x1 .f32) :
    k0_pay8 (F := Ideal) v0 (ix2 (0 : Fin 1) (0 : Fin 1)) = npos (blkMask v0) := by
  unfold k0_pay8
  refine (RowReduce.shapeCast_a_a1_apply _ _ (0 : Fin 1) (0 : Fin 1)).trans ?_
  refine (ColReduce.multiReduction_add_col _ 0x00000000#32 reduces_S512x1_S1 (.inl rfl) rfl (0 : Fin 1)).trans ?_
  exact Finset.sum_congr rfl fun i _ => pay2_apply v0 i

theorem pay9_apply (v0 : Vec Ideal S1x512x1 .f32) :
    k0_pay9 (F := Ideal) v0 (ix2 (0 : Fin 1) (0 : Fin 1)) = valid (blkMask v0) := by
  unfold k0_pay9
  show Ideal.cmp .ogt (k0_pay8 (F := Ideal) v0 (ix2 (0 : Fin 1) (0 : Fin 1))) c1 = _
  rw [pay8_apply]
  rfl

theorem pay10_apply (v0 : Vec Ideal S1x512x1 .f32) :
    k0_pay10 (F := Ideal) v0 (ix2 (0 : Fin 1) (0 : Fin 1)) = safeCnt (blkMask v0) := by
  unfold k0_pay10
  show max (k0_pay8 (F := Ideal) v0 (ix2 (0 : Fin 1) (0 : Fin 1)) * (k0_pay8 (F := Ideal) v0 (ix2 (0 : Fin 1) (0 : Fin 1)) - c1)) c1 = _
  rw [pay8_apply]
  rfl

/-! ## The tables' payloads -/

theorem pay11_eq (v0 : Vec Ideal S1x512x1 .f32) (v3 : Vec Ideal S1x512x256 .f32) :
    k0_pay11 (F := Ideal) v0 v3 = normSums (k0_pay3 (F := Ideal) v0 v3) := rfl

theorem pay12_eq (v0 : Vec Ideal S1x512x1 .f32) (v3 : Vec Ideal S1x512x256 .f32) :
    k0_pay12 (F := Ideal) v0 v3 = twiceGram (k0_pay3 (F := Ideal) v0 v3) := rfl

/-- The difference of the two normalised distance grids, as a composition of the named pieces. -/
theorem pay13_eq (v10 : FVec Ideal S512x256 .f32) (v17 v21 : FVec Ideal S512x512 .f32) (v28 : IVec S1x1 1)
    (v30 : FVec Ideal S1x1 .f32) (v39 v41 : FVec Ideal S512x512 .f32) :
    k0_pay13 (F := Ideal) v10 v17 v21 v28 v30 v39 v41
      = subf (divf (distGrid v39 v41 v17)
                (broadcastTo S512x512 (guardedMean v28 v30 (distGrid v39 v41 v17) v21) broadcasts_S1x1_S512x512))
             (divf (distGrid (normSums v10) (twiceGram v10) v17)
                (broadcastTo S512x512 (guardedMean v28 v30 (distGrid (normSums v10) (twiceGram v10) v17) v21) broadcasts_S1x1_S512x512)) := rfl

theorem pay13_apply (μ : Fin 512 → EReal) (es et : FVec Ideal S512x256 .f32) (v17 v21 : FVec Ideal S512x512 .f32)
    (v28 : IVec S1x1 1) (v30 : FVec Ideal S1x1 .f32)
    (h17 : ∀ i j, v17 (ix2 i j) = offEye i j) (h21 : ∀ i j, v21 (ix2 i j) = offdiag μ i j)
    (h28 : v28 (ix2 (0 : Fin 1) (0 : Fin 1)) = valid μ) (h30 : v30 (ix2 (0 : Fin 1) (0 : Fin 1)) = safeCnt μ) (i j : Fin 512) :
    k0_pay13 (F := Ideal) et v17 v21 v28 v30 (normSums es) (twiceGram es) (ix2 i j) = diff μ (rows es) (rows et) i j := by
  have hd : ∀ (e : FVec Ideal S512x256 .f32) (i j : Fin 512),
      distGrid (normSums e) (twiceGram e) v17 (ix2 i j) = dist (rows e) i j := by
    intro e i j
    rw [distGrid_apply, normSums_apply, twiceGram_apply, h17]
    rfl
  have hm : ∀ e : FVec Ideal S512x256 .f32,
      guardedMean v28 v30 (distGrid (normSums e) (twiceGram e) v17) v21 (ix2 (0 : Fin 1) (0 : Fin 1)) = meanDist μ (rows e) := by
    intro e
    rw [guardedMean_apply, h28, h30]
    simp only [hd, h21]
    rfl
  rw [pay13_eq]
  show Ideal.div (distGrid (normSums es) (twiceGram es) v17 (ix2 i j))
        (broadcastTo S512x512 (guardedMean v28 v30 (distGrid (normSums es) (twiceGram es) v17) v21) broadcasts_S1x1_S512x512 (ix2 i j))
      - Ideal.div (distGrid (normSums et) (twiceGram et) v17 (ix2 i j))
        (broadcastTo S512x512 (guardedMean v28 v30 (distGrid (normSums et) (twiceGram et) v17) v21) broadcasts_S1x1_S512x512 (ix2 i j)) = _
  rw [broadcastTo_cell_apply, broadcastTo_cell_apply, hd, hd, hm, hm]
  rfl

/-! ## The stored row -/

/-- The stored row as a composition of the named pieces: the Huber grid's total over positive pairs, divided, guarded,
    and selected into lane 0. -/
theorem pay1_eq (v20 : FVec Ideal S512x512 .f32) (v23 : FVec Ideal S1x1 .f32) (v28 : IVec S1x1 1)
    (v83 v84 : FVec Ideal S512x512 .f32) (v86 : IVec S512x512 1) (v88 : FVec Ideal S512x512 .f32) :
    k0_pay1 (F := Ideal) v20 v23 v28 v83 v84 v86 v88
      = select (cmpi .eq (iota .tc S1x128 32 [1] iota_S1x128_d1_w32) (broadcast S1x128 (0#32 : BitVec 32)))
          (broadcast S1x128 (extractAt ![0, 0]
            (select v28
              (divf (gridTotal (select v86 (mulf v88 v83) (subf v84 (broadcast S512x512 (Scalar.ofBits .f32 0x3F000000#32)))) v20)
                    (maximumf v23 (broadcast S1x1 (Scalar.ofBits .f32 0x3F800000#32))))
              (broadcast S1x1 (Scalar.ofBits .f32 0x00000000#32))) inpos_S1x1_p0_0))
          (broadcast S1x128 (Scalar.ofBits .f32 0x00000000#32)) := rfl

/-- Lane `l` of the row the body stores, from the three blocks: the sample's loss in lane 0, zero elsewhere. -/
theorem stored_apply (x0 x1 : Vec Ideal S1x512x256 .f32) (x2 : Vec Ideal S1x512x1 .f32) (l : Fin 128) :
    k0_pay1 (F := Ideal) (k0_pay6 x2) (k0_pay8 x2) (k0_pay9 x2)
        (k0_pay13 (k0_pay4 x2 x1) (k0_pay5 (F := Ideal)) (k0_pay7 x2) (k0_pay9 x2) (k0_pay10 x2) (k0_pay11 x2 x0) (k0_pay12 x2 x0))
        (k0_pay14 (k0_pay4 x2 x1) (k0_pay5 (F := Ideal)) (k0_pay7 x2) (k0_pay9 x2) (k0_pay10 x2) (k0_pay11 x2 x0) (k0_pay12 x2 x0))
        (k0_pay15 (k0_pay4 x2 x1) (k0_pay5 (F := Ideal)) (k0_pay7 x2) (k0_pay9 x2) (k0_pay10 x2) (k0_pay11 x2 x0) (k0_pay12 x2 x0))
        (k0_pay16 (k0_pay4 x2 x1) (k0_pay5 (F := Ideal)) (k0_pay7 x2) (k0_pay9 x2) (k0_pay10 x2) (k0_pay11 x2 x0) (k0_pay12 x2 x0))
        (ix2 (0 : Fin 1) l)
      = if l = 0 then sampleLoss (blkMask x2) (masked (blkMask x2) (blkRows x0)) (masked (blkMask x2) (blkRows x1)) else c0 := by
  -- the difference grid, entry by entry
  have hD : ∀ i j : Fin 512,
      k0_pay13 (F := Ideal) (k0_pay4 x2 x1) (k0_pay5 (F := Ideal)) (k0_pay7 x2) (k0_pay9 x2) (k0_pay10 x2) (k0_pay11 x2 x0) (k0_pay12 x2 x0) (ix2 i j)
        = diff (blkMask x2) (masked (blkMask x2) (blkRows x0)) (masked (blkMask x2) (blkRows x1)) i j := by
    intro i j
    rw [pay11_eq, pay12_eq,
      pay13_apply (blkMask x2) (k0_pay3 (F := Ideal) x2 x0) (k0_pay4 (F := Ideal) x2 x1) (k0_pay5 (F := Ideal)) (k0_pay7 (F := Ideal) x2)
        (k0_pay9 (F := Ideal) x2) (k0_pay10 (F := Ideal) x2) pay5_apply (pay7_apply x2) (pay9_apply x2) (pay10_apply x2) i j,
      pay3_rows, pay4_rows]
  -- the Huber grid times the positive-pair grid, entry by entry
  have hH : ∀ i j : Fin 512,
      (select (k0_pay15 (F := Ideal) (k0_pay4 x2 x1) (k0_pay5 (F := Ideal)) (k0_pay7 x2) (k0_pay9 x2) (k0_pay10 x2) (k0_pay11 x2 x0) (k0_pay12 x2 x0))
          (mulf (k0_pay16 (F := Ideal) (k0_pay4 x2 x1) (k0_pay5 (F := Ideal)) (k0_pay7 x2) (k0_pay9 x2) (k0_pay10 x2) (k0_pay11 x2 x0) (k0_pay12 x2 x0))
                (k0_pay13 (F := Ideal) (k0_pay4 x2 x1) (k0_pay5 (F := Ideal)) (k0_pay7 x2) (k0_pay9 x2) (k0_pay10 x2) (k0_pay11 x2 x0) (k0_pay12 x2 x0)))
          (subf (k0_pay14 (F := Ideal) (k0_pay4 x2 x1) (k0_pay5 (F := Ideal)) (k0_pay7 x2) (k0_pay9 x2) (k0_pay10 x2) (k0_pay11 x2 x0) (k0_pay12 x2 x0))
                (broadcast S512x512 (Scalar.ofBits .f32 0x3F000000#32)))) (ix2 i j)
        = huber (diff (blkMask x2) (masked (blkMask x2) (blkRows x0)) (masked (blkMask x2) (blkRows x1)) i j) := by
    intro i j
    rw [← hD i j]
    rfl
  rw [pay1_eq]
  show Scalar.select (IntOp.cmpi .eq (iota .tc S1x128 32 [1] iota_S1x128_d1_w32 (ix2 (0 : Fin 1) l)) (0#32 : BitVec 32))
      (extractAt (s := S1x1) ![0, 0] _ inpos_S1x1_p0_0) c0 = _
  rw [iota_single_apply, extract_cell]
  show Scalar.select (IntOp.cmpi .eq (BitVec.ofNat 32 l.val) (0#32 : BitVec 32)) _ c0 = _
  rw [lane_select]
  refine congrArg (fun v => if l = 0 then v else c0) ?_
  rw [select_apply, divf_apply, gridTotal_apply, pay9_apply]
  unfold sampleLoss
  refine congrArg (fun v => Scalar.select (valid (blkMask x2)) v c0) ?_
  show Ideal.div _ (max (k0_pay8 (F := Ideal) x2 (ix2 (0 : Fin 1) (0 : Fin 1))) c1) = _
  rw [pay8_apply]
  refine congrArg (fun v => Ideal.div v (max (npos (blkMask x2)) c1)) ?_
  refine Finset.sum_congr rfl fun i _ => Finset.sum_congr rfl fun j _ => ?_
  rw [hH i j, pay6_apply]

end Cert.KernelIdeal.PayValue

end
-- ==== Proof.LibTileSum.lean ====
/-
  A sum over `Q * w` consecutive positions taken tile by tile: `Q` tiles of `w` positions each, position
  `b * w + l` being lane `l` of tile `b`. Only commutativity and associativity of the addition are used, so the
  statement holds in every additive commutative monoid.
-/
import Mathlib.Algebra.BigOperators.Fin
import Mathlib.Logic.Equiv.Fin.Basic
import Mathlib.Tactic

namespace Cert.TileSum

variable {M : Type*} [AddCommMonoid M]

/-- Position `b * w + l` of `Q * w`. -/
def pos {Q w : ℕ} (b : Fin Q) (l : Fin w) : Fin (Q * w) :=
  ⟨b.val * w + l.val, by
    have hb := b.isLt; have hl := l.isLt
    calc b.val * w + l.val < b.val * w + w := by omega
      _ = (b.val + 1) * w := by ring
      _ ≤ Q * w := Nat.mul_le_mul_right w hb⟩

/-- The sum over all positions is the sum over the tiles of the sums over their lanes. -/
theorem sum_tiles {Q w : ℕ} (g : Fin (Q * w) → M) :
    ∑ n, g n = ∑ b : Fin Q, ∑ l : Fin w, g (pos b l) := by
  rw [← Fintype.sum_prod_type' (fun b l => g (pos b l))]
  refine (Fintype.sum_equiv finProdFinEquiv _ _ fun p => ?_).symm
  congr 1
  apply Fin.ext
  simp only [finProdFinEquiv_apply_val, pos]
  ring

end Cert.TileSum
-- ==== Proof.KernelArr.lean ====
/-
  From one grid point to the whole result.

  The launch has 64 points, one per sample. At point t the three input windows hold the rows of sample t: the student and
  teacher blocks are rows (t, ·, ·) of the two argument tables, the mask block is column (t, ·, 0) of the mask array, which
  the lines before the launch make from the integer targets (each read as a number and laid out as a column). The output
  array is one row of 64·128 lanes, and point t writes back lanes 128·t … 128·t + 127: the sample's loss in the first
  of them and zeros in the rest. These 64 tiles cover the row, so after the launch the row is one function `laneRow` of
  the argument arrays. The line after the launch adds up the whole row from zero: tile by tile that is the sum of the 64
  losses, every other lane contributing zero.
-/
import proofs.«111974_j50294067036307_2_alg».proof.Proof.Gen.KernelIdeal.Frame
import proofs.«111974_j50294067036307_2_alg».proof.Proof.KernelPay
import proofs.«111974_j50294067036307_2_alg».proof.Proof.LibTileSum
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.ArrValue

open Cert.KernelIdeal Cert.KernelIdeal.Gen Cert.KernelIdeal.PayValue
open Idealize.ShloMosaic.ValueIdx Cert.PairLoss

variable (m : (ℓ : Loc nD τ sig) → Buf (Elt Ideal) ℓ) (ρ : Dev nD → PrngReg)

/-! ## The grid -/

/-- A grid point as a sample number. -/
def pt (t : Fin cfg0.N) : Fin 64 := ⟨t.val, Nat.lt_of_lt_of_eq t.isLt N_0⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: every input window is at block (t, 0, 0), the output at block (0, t). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = t.val :=
  (by decide +kernel : ∀ t : Fin grid0.N, _)

/-! ## The input blocks -/

/-- The mask array as the launch finds it: the targets read as numbers, laid out as columns. -/
theorem V_mask (c : Dev nD) :
    (V m c main_v1 : S64x512x1.Idx → EReal)
      = broadcastInDim S64x512x1 ![0, 1] bcast_S64x512_S64x512x1_0_1
          (sitofp (F := Ideal) .f32 (m ((c : Thread nD τ).loc main_arg2))) := by
  show StableHlo.after hostOps0 (fun b => m (c, b)) (Proc.devRef .tc main_v1) = _
  after_results

/-- Its entry (n, i, 0) is sample n's mask at row i. -/
theorem maskArr_apply (x2 : S64x512.Idx → BitVec 32) (n : Fin 64) (i : Fin 512) :
    broadcastInDim S64x512x1 ![0, 1] bcast_S64x512_S64x512x1_0_1 (sitofp (F := Ideal) .f32 x2) (ix3 n i (0 : Fin 1))
      = maskOf x2 n i :=
  broadcastInDim_apply _ bcast_S64x512_S64x512x1_0_1 (sitofp (F := Ideal) .f32 x2) (ix3 n i (0 : Fin 1)) (ix2 n i) (fun a => match a with
    | ⟨0, _⟩ => by show n.val = if (64 : Nat) = 1 then 0 else n.val; rw [if_neg (by decide)]
    | ⟨1, _⟩ => by show i.val = if (512 : Nat) = 1 then 0 else i.val; rw [if_neg (by decide)])

/-- The student block at point t is rows (t, ·, ·) of the first argument. -/
theorem blk0_rows (c : Dev nD) (t : Fin cfg0.N) :
    blkRows (iblk m c 0 t) = tableOf (m ((c : Thread nD τ).loc main_arg0)) (pt t) := by
  obtain ⟨e00, e01, e02, -⟩ := idx_facts t
  funext i k
  unfold blkRows tableOf iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 512 + 1 * i.val = i.val; omega
  | ⟨2, _⟩ => show win0_0.index t (2 : Fin 3) * 256 + 1 * k.val = k.val; omega

/-- The teacher block at point t is rows (t, ·, ·) of the second argument. -/
theorem blk1_rows (c : Dev nD) (t : Fin cfg0.N) :
    blkRows (iblk m c 1 t) = tableOf (m ((c : Thread nD τ).loc main_arg1)) (pt t) := by
  obtain ⟨-, -, -, e10, e11, e12, -⟩ := idx_facts t
  funext i k
  unfold blkRows tableOf iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * 0 = t.val; omega
  | ⟨1, _⟩ => show win0_1.index t (1 : Fin 3) * 512 + 1 * i.val = i.val; omega
  | ⟨2, _⟩ => show win0_1.index t (2 : Fin 3) * 256 + 1 * k.val = k.val; omega

/-- The mask block at point t is sample t's mask. -/
theorem blk2_mask (c : Dev nD) (t : Fin cfg0.N) :
    blkMask (iblk m c 2 t) = maskOf (m ((c : Thread nD τ).loc main_arg2)) (pt t) := by
  obtain ⟨-, -, -, -, -, -, e20, e21, e22, -⟩ := idx_facts t
  funext i
  unfold blkMask iblk
  rw [View.read_apply]
  show (V m c main_v1 : S64x512x1.Idx → EReal) _ = _
  rw [V_mask, ← maskArr_apply]
  congr 1
  funext a
  apply Fin.ext
  match a with
  | ⟨0, _⟩ => show win0_2.index t (0 : Fin 3) * 1 + 1 * 0 = t.val; omega
  | ⟨1, _⟩ => show win0_2.index t (1 : Fin 3) * 512 + 1 * i.val = i.val; omega
  | ⟨2, _⟩ => show win0_2.index t (2 : Fin 3) * 1 + 1 * 0 = 0; omega

/-! ## The output row -/

/-- The row of 64 tiles of 128 lanes: the sample's loss in a tile's first lane, zero in the others. -/
def laneRow (x0 x1 : S64x512x256.Idx → EReal) (x2 : S64x512.Idx → BitVec 32) : S1x8192.Idx → EReal := fun p =>
  if (p 1).val % 128 = 0 then
    lossOf x0 x1 x2 ⟨(p 1).val / 128, by have h : (p 1).val < 8192 := (p 1).isLt; omega⟩
  else c0

/-- Lane l of tile n. -/
theorem laneRow_tile (x0 x1 : S64x512x256.Idx → EReal) (x2 : S64x512.Idx → BitVec 32) (p : S1x8192.Idx) (n : Fin 64) (l : Fin 128)
    (hp : (p 1).val = n.val * 128 + l.val) :
    laneRow x0 x1 x2 p = if l = 0 then lossOf x0 x1 x2 n else c0 := by
  have hl := l.isLt
  unfold laneRow
  by_cases h : l = 0
  · subst h
    have h0 : (p 1).val % 128 = 0 := by rw [hp]; show (n.val * 128 + 0) % 128 = 0; omega
    rw [if_pos h0, if_pos rfl]
    congr 1
    apply Fin.ext
    show (p 1).val / 128 = n.val
    rw [hp]; show (n.val * 128 + 0) / 128 = n.val; omega
  · have hl0 : l.val ≠ 0 := fun e => h (Fin.ext e)
    have h0 : ¬ (p 1).val % 128 = 0 := by rw [hp]; omega
    rw [if_neg h0, if_neg h]

/-- WHAT POINT t WRITES BACK is tile t of the row. -/
theorem flushed_eq (c : Dev nD) (t : Fin cfg0.N) :
    (dats m 0 c).flushed 3 t = ((cfg0.win 3).blk t).view.read (Elt Ideal)
      (laneRow (m ((c : Thread nD τ).loc main_arg0)) (m ((c : Thread nD τ).loc main_arg1)) (m ((c : Thread nD τ).loc main_arg2))) := by
  obtain ⟨-, -, -, -, -, -, -, -, -, e30, e31⟩ := idx_facts t
  show (cfg0.win 3).cut (grid0.coords t) ((dats m 0 c).after 3 t) = _
  rw [after0_3]
  unfold out0_3
  rw [View.canon_unit_zero hz2]
  simp only [View.ld_unit_zero (S := S1x512x1) hz3, View.ld_unit_zero (S := S1x512x256) hz3]
  funext y
  obtain ⟨u, l, rfl⟩ : ∃ (u : Fin 1) (l : Fin 128), y = ix2 u l := ⟨y 0, y 1, eq_ix2 y⟩
  obtain rfl : u = 0 := Subsingleton.elim _ _
  refine (stored_apply (iblk m c 0 t) (iblk m c 1 t) (iblk m c 2 t) l).trans ?_
  rw [blk0_rows, blk1_rows, blk2_mask]
  refine (laneRow_tile _ _ _ _ (pt t) l ?_).symm
  show win0_3.index t (1 : Fin 2) * 128 + 1 * l.val = t.val * 128 + l.val
  rw [e31]; omega

/-- Every lane of the row is in some point's tile. -/
theorem cover (p : S1x8192.Idx) :
    ∃ t : Fin cfg0.N, (cfg0.win 3).flush t = true ∧ p ∈ ((cfg0.win 3).blk t).view.set := by
  have hp1 : (p 1).val < 8192 := (p 1).isLt
  have hp0 : (p 0).val < 1 := (p 0).isLt
  have ht : (p 1).val / 128 < cfg0.N := by rw [show cfg0.N = 64 from N_0]; omega
  obtain ⟨t, hT⟩ : ∃ t : Fin cfg0.N, t.val = (p 1).val / 128 := ⟨⟨(p 1).val / 128, ht⟩, rfl⟩
  obtain ⟨-, -, -, -, -, -, -, -, -, e30, e31⟩ := idx_facts t
  refine ⟨t, flush0_3 t, ?_⟩
  show p ∈ ((View.whole main_v2).slice (win0_3.rect t)).set
  rw [View.set_slice_whole, Rect.mem_set_unit]
  intro a
  match a with
  | ⟨0, _⟩ =>
    show win0_3.index t (0 : Fin 2) * 1 ≤ (p 0).val ∧ (p 0).val < win0_3.index t (0 : Fin 2) * 1 + 1
    rw [e30]; omega
  | ⟨1, _⟩ =>
    show win0_3.index t (1 : Fin 2) * 128 ≤ (p 1).val ∧ (p 1).val < win0_3.index t (1 : Fin 2) * 128 + 128
    rw [e31, hT]; omega

/-- THE ROW after the launch. -/
theorem final (c : Dev nD) :
    (dats m 0 c).arrAt 3 cfg0.N
      = laneRow (m ((c : Thread nD τ).loc main_arg0)) (m ((c : Thread nD τ).loc main_arg1)) (m ((c : Thread nD τ).loc main_arg2)) :=
  (dats m 0 c).arrAt_eq_of_cover 3 _ (fun t _ => flushed_eq m c t) cover

/-! ## The sum of the row -/

/-- The row added up: the sum of the 64 losses. -/
theorem sum_laneRow (x0 x1 : S64x512x256.Idx → EReal) (x2 : S64x512.Idx → BitVec 32) :
    ∑ p : S1x8192.Idx, laneRow x0 x1 x2 p = total x0 x1 x2 := by
  rw [sum_idx2, Fin.sum_univ_one]
  rw [Cert.TileSum.sum_tiles (Q := 64) (w := 128) (fun q => laneRow x0 x1 x2 (ix2 (0 : Fin 1) q))]
  unfold total
  refine Finset.sum_congr rfl fun n _ => ?_
  rw [Finset.sum_congr rfl fun l _ => laneRow_tile x0 x1 x2 (ix2 (0 : Fin 1) (Cert.TileSum.pos n l)) n l rfl]
  rw [show (c0 : EReal) = 0 from Ideal.ofBits_zero_f32]
  simp

end Cert.KernelIdeal.ArrValue

end
-- ==== Proof.KernelRun.lean ====
/-
  The kernel's run, read: the result cell ends at the sum of the 64 samples' losses, the arguments unchanged.

  After the launch the output row is `laneRow` of the arguments; the one line after it adds the whole row up from the
  zero word, which over the extended reals is the plain sum of the row, and that sum is `total`.
-/
import proofs.«111974_j50294067036307_2_alg».proof.Proof.KernelArr

set_option maxRecDepth 16384

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.ArrValue
open Idealize.ShloMosaic.ValueIdx Cert.PairLoss

variable (m : (ℓ : Loc nD τ sig) → Buf (Elt Ideal) ℓ) (ρ : Dev nD → PrngReg)

/-- The host's sum of a whole row from the zero word is the row's sum. -/
theorem rowSum (G : S1x8192.Idx → EReal) :
    Host.reduceAdd (F := Ideal) (φ := .f32) G (constant S_ .f32 0x00000000#32) reducesTo_S1x8192_S_d0_1 h_S_ = fun _ => ∑ p, G p := by
  funext j
  show Ideal.hostReduceAdd reducesTo_S1x8192_S_d0_1 G (Ideal.ofBits .f32 0x00000000#32) j = _
  rw [Ideal.hostReduceAdd_total _ (fun b => b.elim0), Ideal.ofBits_zero_f32, zero_add]

/-- The result cell after the line that follows the launch. -/
theorem tail_eq (c : Dev nD) :
    Pipeline.afterTail₀ cfgs (dats m) 0 (V0 m) [hostOps1] c main_v3
      = fun _ => total (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have e := (Pipeline.withArrays_arr spec0 launch0.win.arr_inj c (V0 m c) (fun w => (dats m 0 c).arrAt w cfg0.N) 3).trans (final m c)
  refine (congrArg (fun x => Host.reduceAdd (F := Ideal) (φ := .f32) x (constant S_ .f32 0x00000000#32) reducesTo_S1x8192_S_d0_1 h_S_) e).trans ?_
  rw [rowSum, sum_laneRow]
  rfl

/-- THE RUN, read: every weakly fair execution ends with the result cell at the sum of the samples' losses and the three
    argument arrays as they were. -/
theorem run : θ_run defs (onTc (τ := τ) (main (F := Ideal))) ⟨m, fun _ => 0, ρ⟩ fun r => ∀ c : Dev nD,
      r.2.mem ((c : Thread nD τ).loc main_v3)
        = (fun _ => total (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.RunValue

end
-- ==== Proof.lean ====
/-
  The certificate of one kernel against its reference: a masked pairwise-distance distillation loss.

  For each of 64 samples there are a mask on 512 rows (integer targets read as numbers) and two 512×256 tables, student
  and teacher. Each table is masked row by row; its rows' pairwise distances are sqrt(max(|r_i|² + |r_j|² − 2 r_i·r_j, ε)),
  zeroed on the diagonal, and are divided by their mean over pairs of different positive rows; the Huber penalty of the
  difference of the two normalised distance grids is summed over pairs of positive rows and divided by the number of
  positive rows; the result is the sum over the samples (Proof/LossSpec.lean states all of this once, as `total`).

  The kernel treats one sample per grid point: it forms the inner products by one matrix product of the masked table with
  itself (rows against rows), the row norms by lane sums kept as a column, sums each grid rows first and then the column
  of row sums, and leaves the sample's loss in the first lane of a 128-lane tile of the output row, zeros in the other
  lanes; the line after the launch adds up the whole row. The reference works on all samples at once, sums each grid
  over both axes in one step, and adds up the 64 losses. Over the extended reals the two differ only in the order and
  grouping of additions, in added zeros, and in the order of the two operands of one maximum, so the two results are
  equal for all inputs; the precondition is not used by the value claim.

  The three frames: the kernel's two are the generated frame certificates; the reference has no launch, and its frame is
  its run with the result dropped. The idealization rewrote nothing, so there is nothing to preserve. The value claim
  puts the kernel's run (Proof/KernelRun.lean, over KernelVec / KernelPay / KernelArr) beside the reference's run read
  stage by stage (Proof/RefValue.lean): both end at `total` of the argument arrays, which agree.
-/
import proofs.«111974_j50294067036307_2_alg».proof.Defs
import proofs.«111974_j50294067036307_2_alg».proof.Proof.Gen.Kernel
import proofs.«111974_j50294067036307_2_alg».proof.Proof.Gen.Kernel.Skeleton
import proofs.«111974_j50294067036307_2_alg».proof.Proof.Gen.Kernel.Launch
import proofs.«111974_j50294067036307_2_alg».proof.Proof.Gen.Kernel.Points
import proofs.«111974_j50294067036307_2_alg».proof.Proof.Gen.Kernel.Frame
import proofs.«111974_j50294067036307_2_alg».proof.Proof.Gen.KernelIdeal
import proofs.«111974_j50294067036307_2_alg».proof.Proof.Gen.KernelIdeal.Skeleton
import proofs.«111974_j50294067036307_2_alg».proof.Proof.Gen.KernelIdeal.Launch
import proofs.«111974_j50294067036307_2_alg».proof.Proof.Gen.KernelIdeal.Points
import proofs.«111974_j50294067036307_2_alg».proof.Proof.Gen.KernelIdeal.Frame
import proofs.«111974_j50294067036307_2_alg».proof.Proof.Gen.ReferenceIdeal
import proofs.«111974_j50294067036307_2_alg».proof.Proof.Gen.Pre_finite_inputs
import proofs.«111974_j50294067036307_2_alg».proof.Proof.RefRunP
import proofs.«111974_j50294067036307_2_alg».proof.Proof.RefReadP
import proofs.«111974_j50294067036307_2_alg».proof.Proof.RefValue
import proofs.«111974_j50294067036307_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at `Cert.PairLoss.total` of their argument arrays, and the arrays agree. -/
theorem algebraic : Cert.algebraic_KernelIdeal_ReferenceIdeal := by
  intro m ρ m' ρ' _ hagree
  refine ⟨fun c => (fun _ => Cert.PairLoss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.RunValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v111_eq, Cert.ReferenceIdeal.RefValue.ref_total,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
